-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x256x7x7 : Shape := ⟨4, ![5000, 256, 7, 7]⟩
abbrev S32x12544 : Shape := ⟨2, ![32, 12544]⟩
abbrev S32 : Shape := ⟨1, ![32]⟩
abbrev S124x12544 : Shape := ⟨2, ![124, 12544]⟩
abbrev S124 : Shape := ⟨1, ![124]⟩
abbrev S3x12544 : Shape := ⟨2, ![3, 12544]⟩
abbrev S3 : Shape := ⟨1, ![3]⟩
abbrev S7x12544 : Shape := ⟨2, ![7, 12544]⟩
abbrev S7 : Shape := ⟨1, ![7]⟩
abbrev S2x12544 : Shape := ⟨2, ![2, 12544]⟩
abbrev S2 : Shape := ⟨1, ![2]⟩
abbrev S_ : Shape := ⟨0, ![]⟩

class Facts : Prop where
  bcast_S_S5000x256x7x7 : S_.BroadcastsInDim S5000x256x7x7 (![] : Fin 0 → Fin S5000x256x7x7.rank)
  reducesTo_S5000x256x7x7_S_d0_1_2_3 : S5000x256x7x7.ReducesTo [0, 1, 2, 3] S_
  h_S_ : 0 < S_.numel
  bcast_S_S32x12544 : S_.BroadcastsInDim S32x12544 (![] : Fin 0 → Fin S32x12544.rank)
  reducesTo_S32x12544_S_d0_1 : S32x12544.ReducesTo [0, 1] S_
  bcast_S_S32 : S_.BroadcastsInDim S32 (![] : Fin 0 → Fin S32.rank)
  reducesTo_S32_S_d0 : S32.ReducesTo [0] S_
  bcast_S_S124x12544 : S_.BroadcastsInDim S124x12544 (![] : Fin 0 → Fin S124x12544.rank)
  reducesTo_S124x12544_S_d0_1 : S124x12544.ReducesTo [0, 1] S_
  bcast_S_S124 : S_.BroadcastsInDim S124 (![] : Fin 0 → Fin S124.rank)
  reducesTo_S124_S_d0 : S124.ReducesTo [0] S_
  bcast_S_S3x12544 : S_.BroadcastsInDim S3x12544 (![] : Fin 0 → Fin S3x12544.rank)
  reducesTo_S3x12544_S_d0_1 : S3x12544.ReducesTo [0, 1] S_
  bcast_S_S3 : S_.BroadcastsInDim S3 (![] : Fin 0 → Fin S3.rank)
  reducesTo_S3_S_d0 : S3.ReducesTo [0] S_
  bcast_S_S7x12544 : S_.BroadcastsInDim S7x12544 (![] : Fin 0 → Fin S7x12544.rank)
  reducesTo_S7x12544_S_d0_1 : S7x12544.ReducesTo [0, 1] S_
  bcast_S_S7 : S_.BroadcastsInDim S7 (![] : Fin 0 → Fin S7.rank)
  reducesTo_S7_S_d0 : S7.ReducesTo [0] S_
  bcast_S_S2x12544 : S_.BroadcastsInDim S2x12544 (![] : Fin 0 → Fin S2x12544.rank)
  reducesTo_S2x12544_S_d0_1 : S2x12544.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S7x12544 .f32) (main_arg8 : FVec F S7 .f32) (main_arg9 : FVec F S2x12544 .f32) (main_arg10 : FVec F S2 .f32) (main_v33 : IVec S_ 1) : IVec S_ 1 :=
  let main_v34 : FVec F S7x12544 .f32 := Host.absf main_arg7
  let main_cst_12 : FVec F S_ .f32 := constant S_ .f32 0x7F800000#32
  let main_v35 : FVec F S7x12544 .f32 := broadcastInDim S7x12544 ![] bcast_S_S7x12544 main_cst_12
  let main_v36 : IVec S7x12544 1 := cmpf .olt main_v34 main_v35
  let main_c_13 : IVec S_ 1 := constantI S_ 1 1#1
  let main_v37 : IVec S_ 1 := (fun x v => Host.reduce IntOp.andi x v reducesTo_S7x12544_S_d0_1 h_S_) main_v36 main_c_13
  let main_v38 : IVec S_ 1 := andi main_v33 main_v37
  let main_v39 : FVec F S7 .f32 := Host.absf main_arg8
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_v44 : FVec F S2x12544 .f32 := Host.absf main_arg9
  let main_cst_16 : FVec F S_ .f32 := constant S_ .f32 0x7F800000#32
  let main_v45 : FVec F S2x12544 .f32 := broadcastInDim S2x12544 ![] bcast_S_S2x12544 main_cst_16
  let main_v46 : IVec S2x12544 1 := cmpf .olt main_v44 main_v45
  let main_c_17 : IVec S_ 1 := constantI S_ 1 1#1
  let main_v47 : IVec S_ 1 := (fun x v => Host.reduce IntOp.andi x v reducesTo_S2x12544_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S124 .f32) (main_arg5 : FVec F S3x12544 .f32) (main_arg6 : FVec F S3 .f32) (main_arg7 : FVec F S7x12544 .f32) (main_arg8 : FVec F S7 .f32) (main_arg9 : FVec F S2x12544 .f32) (main_arg10 : FVec F S2 .f32) (main_v13 : IVec S_ 1) (main_v16 : IVec S124x12544 1) : IVec S_ 1 :=
  let main_c_5 : IVec S_ 1 := constantI S_ 1 1#1
  let main_v17 : IVec S_ 1 := (fun x v => Host.reduce IntOp.andi x v reducesTo_S124x12544_S_d0_1 h_S_) main_v16 main_c_5
  let main_v18 : IVec S_ 1 := andi main_v13 main_v17
  let main_v19 : FVec F S124 .f32 := Host.absf main_arg4
  let main_cst_6 : FVec F S_ .f32 := constant S_ .f32 0x7F800000#32
  let main_v20 : FVec F S124 .f32 := broadcastInDim S124 ![] bcast_S_S124 main_cst_6
  let main_v21 : IVec S124 1 := cmpf .olt main_v19 main_v20
  let main_c_7 : IVec S_ 1 := constantI S_ 1 1#1
  let main_v22 : IVec S_ 1 := (fun x v => Host.reduce IntOp.andi x v reducesTo_S124_S_d0 h_S_) main_v21 main_c_7
  let main_v23 : IVec S_ 1 := andi main_v18 main_v22
  let main_v24 : FVec F S3x12544 .f32 := Host.absf main_arg5
  let main_cst_8 : FVec F S_ .f32 := constant S_ .f32 0x7F800000#32
  let main_v25 : FVec F S3x12544 .f32 := broadcastInDim S3x12544 ![] bcast_S_S3x12544 main_cst_8
  let main_v26 : IVec S3x12544 1 := cmpf .olt main_v24 main_v25
  let main_c_9 : IVec S_ 1 := constantI S_ 1 1#1
  let main_v27 : IVec S_ 1 := (fun x v => Host.reduce IntOp.andi x v reducesTo_S3x12544_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S5000x256x7x7 .f32) (main_arg1 : FVec F S32x12544 .f32) (main_arg2 : FVec F S32 .f32) (main_arg3 : FVec F S124x12544 .f32) (main_arg4 : FVec F S124 .f32) (main_arg5 : FVec F S3x12544 .f32) (main_arg6 : FVec F S3 .f32) (main_arg7 : FVec F S7x12544 .f32) (main_arg8 : FVec F S7 .f32) (main_arg9 : FVec F S2x12544 .f32) (main_arg10 : FVec F S2 .f32) : IVec S_ 1 :=
  let main_v0 : FVec F S5000x256x7x7 .f32 := Host.absf main_arg0
  let main_cst : FVec F S_ .f32 := constant S_ .f32 0x7F800000#32
  let main_v1 : FVec F S5000x256x7x7 .f32 := broadcastInDim S5000x256x7x7 ![] bcast_S_S5000x256x7x7 main_cst
  let main_v2 : IVec S5000x256x7x7 1 := cmpf .olt main_v0 main_v1
  let main_c : IVec S_ 1 := constantI S_ 1 1#1
  let main_v3 : IVec S_ 1 := (fun x v => Host.reduce IntOp.andi x v reducesTo_S5000x256x7x7_S_d0_1_2_3 h_S_) main_v2 main_c
  let main_v4 : FVec F S32x12544 .f32 := Host.absf main_arg1
  let main_cst_0 : FVec F S_ .f32 := constant S_ .f32 0x7F800000#32
  let main_v5 : FVec F S32x12544 .f32 := broadcastInDim S32x12544 ![] bcast_S_S32x12544 main_cst_0
  let main_v6 : IVec S32x12544 1 := cmpf .olt main_v4 main_v5
  let main_c_1 : IVec S_ 1 := constantI S_ 1 1#1
  let main_v7 : IVec S_ 1 := (fun x v => Host.reduce IntOp.andi x v reducesTo_S32x12544_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S124x12544 .f32 := Host.absf main_arg3
  let main_cst_4 : FVec F S_ .f32 := constant S_ .f32 0x7F800000#32
  let main_v15 : FVec F S124x12544 .f32 := broadcastInDim S124x12544 ![] bcast_S_S124x12544 main_cst_4
  let main_v16 : IVec S124x12544 1 := cmpf .olt main_v14 main_v15
  fn_part1 (F := F) main_arg4 main_arg5 main_arg6 main_arg7 main_arg8 main_arg9 main_arg10 main_v13 main_v16
-- ==== Kernel.lean ====
abbrev S5000x256x7x7 : Shape := ⟨4, ![5000, 256, 7, 7]⟩
abbrev S32x12544 : Shape := ⟨2, ![32, 12544]⟩
abbrev S32 : Shape := ⟨1, ![32]⟩
abbrev S124x12544 : Shape := ⟨2, ![124, 12544]⟩
abbrev S124 : Shape := ⟨1, ![124]⟩
abbrev S3x12544 : Shape := ⟨2, ![3, 12544]⟩
abbrev S3 : Shape := ⟨1, ![3]⟩
abbrev S7x12544 : Shape := ⟨2, ![7, 12544]⟩
abbrev S7 : Shape := ⟨1, ![7]⟩
abbrev S2x12544 : Shape := ⟨2, ![2, 12544]⟩
abbrev S2 : Shape := ⟨1, ![2]⟩
abbrev S7x7x5000x256 : Shape := ⟨4, ![7, 7, 5000, 256]⟩
abbrev S168x12544 : Shape := ⟨2, ![168, 12544]⟩
abbrev S168x256x7x7 : Shape := ⟨4, ![168, 256, 7, 7]⟩
abbrev S7x7x256x168 : Shape := ⟨4, ![7, 7, 256, 168]⟩
abbrev S168 : Shape := ⟨1, ![168]⟩
abbrev S1x168 : Shape := ⟨2, ![1, 168]⟩
abbrev S5000x168 : Shape := ⟨2, ![5000, 168]⟩
abbrev S7x7x200x256 : Shape := ⟨4, ![7, 7, 200, 256]⟩
abbrev S200x168 : Shape := ⟨2, ![200, 168]⟩
abbrev S1x1x200x256 : Shape := ⟨4, ![1, 1, 200, 256]⟩
abbrev S200x256 : Shape := ⟨2, ![200, 256]⟩
abbrev S1x1x256x168 : Shape := ⟨4, ![1, 1, 256, 168]⟩
abbrev S256x168 : Shape := ⟨2, ![256, 168]⟩
abbrev S5000x32 : Shape := ⟨2, ![5000, 32]⟩
abbrev S5000x124 : Shape := ⟨2, ![5000, 124]⟩
abbrev S5000x3 : Shape := ⟨2, ![5000, 3]⟩
abbrev S5000x7 : Shape := ⟨2, ![5000, 7]⟩
abbrev S5000x2 : Shape := ⟨2, ![5000, 2]⟩

abbrev nBuf : Space → Nat
  | .hbm => 24
  | .vmem => 6
  | .smem => 0
  | _ => 0

abbrev bufTy : (tb : Table) → Fin (tcTables nBuf tb) → BufTy
  | .hbm, ⟨0, _⟩ => ⟨S5000x256x7x7, .f32⟩
  | .hbm, ⟨1, _⟩ => ⟨S32x12544, .f32⟩
  | .hbm, ⟨2, _⟩ => ⟨S32, .f32⟩
  | .hbm, ⟨3, _⟩ => ⟨S124x12544, .f32⟩
  | .hbm, ⟨4, _⟩ => ⟨S124, .f32⟩
  | .hbm, ⟨5, _⟩ => ⟨S3x12544, .f32⟩
  | .hbm, ⟨6, _⟩ => ⟨S3, .f32⟩
  | .hbm, ⟨7, _⟩ => ⟨S7x12544, .f32⟩
  | .hbm, ⟨8, _⟩ => ⟨S7, .f32⟩
  | .hbm, ⟨9, _⟩ => ⟨S2x12544, .f32⟩
  | .hbm, ⟨10, _⟩ => ⟨S2, .f32⟩
  | .hbm, ⟨11, _⟩ => ⟨S7x7x5000x256, .f32⟩
  | .hbm, ⟨12, _⟩ => ⟨S168x12544, .f32⟩
  | .hbm, ⟨13, _⟩ => ⟨S168x12544, .bf16⟩
  | .hbm, ⟨14, _⟩ => ⟨S168x256x7x7, .bf16⟩
  | .hbm, ⟨15, _⟩ => ⟨S7x7x256x168, .bf16⟩
  | .hbm, ⟨16, _⟩ => ⟨S168, .f32⟩
  | .hbm, ⟨17, _⟩ => ⟨S1x168, .f32⟩
  | .hbm, ⟨18, _⟩ => ⟨S5000x168, .f32⟩
  | .hbm, ⟨19, _⟩ => ⟨S5000x32, .f32⟩
  | .hbm, ⟨20, _⟩ => ⟨S5000x124, .f32⟩
  | .hbm, ⟨21, _⟩ => ⟨S5000x3, .f32⟩
  | .hbm, ⟨22, _⟩ => ⟨S5000x7, .f32⟩
  | .hbm, ⟨23, _⟩ => ⟨S5000x2, .f32⟩
  | .local _ .vmem, ⟨0, _⟩ => ⟨S7x7x200x256, .f32⟩
  | .local _ .vmem, ⟨1, _⟩ => ⟨S7x7x200x256, .f32⟩
  | .local _ .vmem, ⟨2, _⟩ => ⟨S7x7x256x168, .bf16⟩
  | .local _ .vmem, ⟨3, _⟩ => ⟨S1x168, .f32⟩
  | .local _ .vmem, ⟨4, _⟩ => ⟨S200x168, .f32⟩
  | .local _ .vmem, ⟨5, _⟩ => ⟨S200x168, .f32⟩
  | _, _ => ⟨S5000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x7x256x168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S5000x256x7x7_S7x7x5000x256_2_3_0_1 : S5000x256x7x7.Transposes [2, 3, 0, 1] S7x7x5000x256
  concatenates_S32x12544_S124x12544_S3x12544_S7x12544_S2x12544_S168x12544_d0 : Shape.Concatenates [S32x12544, S124x12544, S3x12544, S7x12544, S2x12544] S168x12544 0
  bitsLt_bf16_f32 : FTy.bits .bf16 < FTy.bits .f32
  shapeCasts_S168x12544_S168x256x7x7 : S168x12544.ShapeCasts S168x256x7x7
  transposes_S168x256x7x7_S7x7x256x168_3_2_1_0 : S168x256x7x7.Transposes [3, 2, 1, 0] S7x7x256x168
  concatenates_S32_S124_S3_S7_S2_S168_d0 : Shape.Concatenates [S32, S124, S3, S7, S2] S168 0
  bcast_S168_S1x168_1 : S168.BroadcastsInDim S1x168 (![1] : Fin 1 → Fin S1x168.rank)
  inb_S1x168_S1x168_0_0 : ∀ a, (![0, 0] : Fin 2 → Nat) a + S1x168.size a ≤ S1x168.size a
  h_S1x168 : 0 < S1x168.numel
  shapeCasts_S1x168_S1x168 : S1x168.ShapeCasts S1x168
  inb_S7x7x200x256_S1x1x200x256_0_0_0_0 : ∀ a, (![0, 0, 0, 0] : Fin 4 → Nat) a + S1x1x200x256.size a ≤ S7x7x200x256.size a
  h_S1x1x200x256 : 0 < S1x1x200x256.numel
  shapeCasts_S1x1x200x256_S200x256 : S1x1x200x256.ShapeCasts S200x256
  inb_S7x7x256x168_S1x1x256x168_0_0_0_0 : ∀ a, (![0, 0, 0, 0] : Fin 4 → Nat) a + S1x1x256x168.size a ≤ S7x7x256x168.size a
  h_S1x1x256x168 : 0 < S1x1x256x168.numel
  shapeCasts_S1x1x256x168_S256x168 : S1x1x256x168.ShapeCasts S256x168
  broadcasts_S1x168_S200x168 : S1x168.Broadcasts S200x168
  inb_S7x7x200x256_S1x1x200x256_0_1_0_0 : ∀ a, (![0, 1, 0, 0] : Fin 4 → Nat) a + S1x1x200x256.size a ≤ S7x7x200x256.size a
  inb_S7x7x256x168_S1x1x256x168_1_0_0_0 : ∀ a, (![1, 0, 0, 0] : Fin 4 → Nat) a + S1x1x256x168.size a ≤ S7x7x256x168.size a
  inb_S7x7x200x256_S1x1x200x256_0_2_0_0 : ∀ a, (![0, 2, 0, 0] : Fin 4 → Nat) a + S1x1x200x256.size a ≤ S7x7x200x256.size a
  inb_S7x7x256x168_S1x1x256x168_2_0_0_0 : ∀ a, (![2, 0, 0, 0] : Fin 4 → Nat) a + S1x1x256x168.size a ≤ S7x7x256x168.size a
  inb_S7x7x200x256_S1x1x200x256_0_3_0_0 : ∀ a, (![0, 3, 0, 0] : Fin 4 → Nat) a + S1x1x200x256.size a ≤ S7x7x200x256.size a
  inb_S7x7x256x168_S1x1x256x168_3_0_0_0 : ∀ a, (![3, 0, 0, 0] : Fin 4 → Nat) a + S1x1x256x168.size a ≤ S7x7x256x168.size a
  inb_S7x7x200x256_S1x1x200x256_0_4_0_0 : ∀ a, (![0, 4, 0, 0] : Fin 4 → Nat) a + S1x1x200x256.size a ≤ S7x7x200x256.size a
  inb_S7x7x256x168_S1x1x256x168_4_0_0_0 : ∀ a, (![4, 0, 0, 0] : Fin 4 → Nat) a + S1x1x256x168.size a ≤ S7x7x256x168.size a
  inb_S7x7x200x256_S1x1x200x256_0_5_0_0 : ∀ a, (![0, 5, 0, 0] : Fin 4 → Nat) a + S1x1x200x256.size a ≤ S7x7x200x256.size a
  inb_S7x7x256x168_S1x1x256x168_5_0_0_0 : ∀ a, (![5, 0, 0, 0] : Fin 4 → Nat) a + S1x1x256x168.size a ≤ S7x7x256x168.size a
  inb_S7x7x200x256_S1x1x200x256_0_6_0_0 : ∀ a, (![0, 6, 0, 0] : Fin 4 → Nat) a + S1x1x200x256.size a ≤ S7x7x200x256.size a
  inb_S7x7x256x168_S1x1x256x168_6_0_0_0 : ∀ a, (![6, 0, 0, 0] : Fin 4 → Nat) a + S1x1x256x168.size a ≤ S7x7x256x168.size a
  inb_S7x7x200x256_S1x1x200x256_1_0_0_0 : ∀ a, (![1, 0, 0, 0] : Fin 4 → Nat) a + S1x1x200x256.size a ≤ S7x7x200x256.size a
  inb_S7x7x256x168_S1x1x256x168_0_1_0_0 : ∀ a, (![0, 1, 0, 0] : Fin 4 → Nat) a + S1x1x256x168.size a ≤ S7x7x256x168.size a
  inb_S7x7x200x256_S1x1x200x256_1_1_0_0 : ∀ a, (![1, 1, 0, 0] : Fin 4 → Nat) a + S1x1x200x256.size a ≤ S7x7x200x256.size a
  inb_S7x7x256x168_S1x1x256x168_1_1_0_0 : ∀ a, (![1, 1, 0, 0] : Fin 4 → Nat) a + S1x1x256x168.size a ≤ S7x7x256x168.size a
  inb_S7x7x200x256_S1x1x200x256_1_2_0_0 : ∀ a, (![1, 2, 0, 0] : Fin 4 → Nat) a + S1x1x200x256.size a ≤ S7x7x200x256.size a
  inb_S7x7x256x168_S1x1x256x168_2_1_0_0 : ∀ a, (![2, 1, 0, 0] : Fin 4 → Nat) a + S1x1x256x168.size a ≤ S7x7x256x168.size a
  inb_S7x7x200x256_S1x1x200x256_1_3_0_0 : ∀ a, (![1, 3, 0, 0] : Fin 4 → Nat) a + S1x1x200x256.size a ≤ S7x7x200x256.size a
  inb_S7x7x256x168_S1x1x256x168_3_1_0_0 : ∀ a, (![3, 1, 0, 0] : Fin 4 → Nat) a + S1x1x256x168.size a ≤ S7x7x256x168.size a
  inb_S7x7x200x256_S1x1x200x256_1_4_0_0 : ∀ a, (![1, 4, 0, 0] : Fin 4 → Nat) a + S1x1x200x256.size a ≤ S7x7x200x256.size a
  inb_S7x7x256x168_S1x1x256x168_4_1_0_0 : ∀ a, (![4, 1, 0, 0] : Fin 4 → Nat) a + S1x1x256x168.size a ≤ S7x7x256x168.size a
  inb_S7x7x200x256_S1x1x200x256_1_5_0_0 : ∀ a, (![1, 5, 0, 0] : Fin 4 → Nat) a + S1x1x200x256.size a ≤ S7x7x200x256.size a
  inb_S7x7x256x168_S1x1x256x168_5_1_0_0 : ∀ a, (![5, 1, 0, 0] : Fin 4 → Nat) a + S1x1x256x168.size a ≤ S7x7x256x168.size a
  inb_S7x7x200x256_S1x1x200x256_1_6_0_0 : ∀ a, (![1, 6, 0, 0] : Fin 4 → Nat) a + S1x1x200x256.size a ≤ S7x7x200x256.size a
  inb_S7x7x256x168_S1x1x256x168_6_1_0_0 : ∀ a, (![6, 1, 0, 0] : Fin 4 → Nat) a + S1x1x256x168.size a ≤ S7x7x256x168.size a
  inb_S7x7x200x256_S1x1x200x256_2_0_0_0 : ∀ a, (![2, 0, 0, 0] : Fin 4 → Nat) a + S1x1x200x256.size a ≤ S7x7x200x256.size a
  inb_S7x7x256x168_S1x1x256x168_0_2_0_0 : ∀ a, (![0, 2, 0, 0] : Fin 4 → Nat) a + S1x1x256x168.size a ≤ S7x7x256x168.size a
  inb_S7x7x200x256_S1x1x200x256_2_1_0_0 : ∀ a, (![2, 1, 0, 0] : Fin 4 → Nat) a + S1x1x200x256.size a ≤ S7x7x200x256.size a
  inb_S7x7x256x168_S1x1x256x168_1_2_0_0 : ∀ a, (![1, 2, 0, 0] : Fin 4 → Nat) a + S1x1x256x168.size a ≤ S7x7x256x168.size a
  inb_S7x7x200x256_S1x1x200x256_2_2_0_0 : ∀ a, (![2, 2, 0, 0] : Fin 4 → Nat) a + S1x1x200x256.size a ≤ S7x7x200x256.size a
  inb_S7x7x256x168_S1x1x256x168_2_2_0_0 : ∀ a, (![2, 2, 0, 0] : Fin 4 → Nat) a + S1x1x256x168.size a ≤ S7x7x256x168.size a
  inb_S7x7x200x256_S1x1x200x256_2_3_0_0 : ∀ a, (![2, 3, 0, 0] : Fin 4 → Nat) a + S1x1x200x256.size a ≤ S7x7x200x256.size a
  inb_S7x7x256x168_S1x1x256x168_3_2_0_0 : ∀ a, (![3, 2, 0, 0] : Fin 4 → Nat) a + S1x1x256x168.size a ≤ S7x7x256x168.size a
  inb_S7x7x200x256_S1x1x200x256_2_4_0_0 : ∀ a, (![2, 4, 0, 0] : Fin 4 → Nat) a + S1x1x200x256.size a ≤ S7x7x200x256.size a
  inb_S7x7x256x168_S1x1x256x168_4_2_0_0 : ∀ a, (![4, 2, 0, 0] : Fin 4 → Nat) a + S1x1x256x168.size a ≤ S7x7x256x168.size a
  inb_S7x7x200x256_S1x1x200x256_2_5_0_0 : ∀ a, (![2, 5, 0, 0] : Fin 4 → Nat) a + S1x1x200x256.size a ≤ S7x7x200x256.size a
  inb_S7x7x256x168_S1x1x256x168_5_2_0_0 : ∀ a, (![5, 2, 0, 0] : Fin 4 → Nat) a + S1x1x256x168.size a ≤ S7x7x256x168.size a
  inb_S7x7x200x256_S1x1x200x256_2_6_0_0 : ∀ a, (![2, 6, 0, 0] : Fin 4 → Nat) a + S1x1x200x256.size a ≤ S7x7x200x256.size a
  inb_S7x7x256x168_S1x1x256x168_6_2_0_0 : ∀ a, (![6, 2, 0, 0] : Fin 4 → Nat) a + S1x1x256x168.size a ≤ S7x7x256x168.size a
  inb_S7x7x200x256_S1x1x200x256_3_0_0_0 : ∀ a, (![3, 0, 0, 0] : Fin 4 → Nat) a + S1x1x200x256.size a ≤ S7x7x200x256.size a
  inb_S7x7x256x168_S1x1x256x168_0_3_0_0 : ∀ a, (![0, 3, 0, 0] : Fin 4 → Nat) a + S1x1x256x168.size a ≤ S7x7x256x168.size a
  inb_S7x7x200x256_S1x1x200x256_3_1_0_0 : ∀ a, (![3, 1, 0, 0] : Fin 4 → Nat) a + S1x1x200x256.size a ≤ S7x7x200x256.size a
  inb_S7x7x256x168_S1x1x256x168_1_3_0_0 : ∀ a, (![1, 3, 0, 0] : Fin 4 → Nat) a + S1x1x256x168.size a ≤ S7x7x256x168.size a
  inb_S7x7x200x256_S1x1x200x256_3_2_0_0 : ∀ a, (![3, 2, 0, 0] : Fin 4 → Nat) a + S1x1x200x256.size a ≤ S7x7x200x256.size a
  inb_S7x7x256x168_S1x1x256x168_2_3_0_0 : ∀ a, (![2, 3, 0, 0] : Fin 4 → Nat) a + S1x1x256x168.size a ≤ S7x7x256x168.size a
  inb_S7x7x200x256_S1x1x200x256_3_3_0_0 : ∀ a, (![3, 3, 0, 0] : Fin 4 → Nat) a + S1x1x200x256.size a ≤ S7x7x200x256.size a
  inb_S7x7x256x168_S1x1x256x168_3_3_0_0 : ∀ a, (![3, 3, 0, 0] : Fin 4 → Nat) a + S1x1x256x168.size a ≤ S7x7x256x168.size a
  inb_S7x7x200x256_S1x1x200x256_3_4_0_0 : ∀ a, (![3, 4, 0, 0] : Fin 4 → Nat) a + S1x1x200x256.size a ≤ S7x7x200x256.size a
  inb_S7x7x256x168_S1x1x256x168_4_3_0_0 : ∀ a, (![4, 3, 0, 0] : Fin 4 → Nat) a + S1x1x256x168.size a ≤ S7x7x256x168.size a
  inb_S7x7x200x256_S1x1x200x256_3_5_0_0 : ∀ a, (![3, 5, 0, 0] : Fin 4 → Nat) a + S1x1x200x256.size a ≤ S7x7x200x256.size a
  inb_S7x7x256x168_S1x1x256x168_5_3_0_0 : ∀ a, (![5, 3, 0, 0] : Fin 4 → Nat) a + S1x1x256x168.size a ≤ S7x7x256x168.size a
  inb_S7x7x200x256_S1x1x200x256_3_6_0_0 : ∀ a, (![3, 6, 0, 0] : Fin 4 → Nat) a + S1x1x200x256.size a ≤ S7x7x200x256.size a
  inb_S7x7x256x168_S1x1x256x168_6_3_0_0 : ∀ a, (![6, 3, 0, 0] : Fin 4 → Nat) a + S1x1x256x168.size a ≤ S7x7x256x168.size a
  inb_S7x7x200x256_S1x1x200x256_4_0_0_0 : ∀ a, (![4, 0, 0, 0] : Fin 4 → Nat) a + S1x1x200x256.size a ≤ S7x7x200x256.size a
  inb_S7x7x256x168_S1x1x256x168_0_4_0_0 : ∀ a, (![0, 4, 0, 0] : Fin 4 → Nat) a + S1x1x256x168.size a ≤ S7x7x256x168.size a
  inb_S7x7x200x256_S1x1x200x256_4_1_0_0 : ∀ a, (![4, 1, 0, 0] : Fin 4 → Nat) a + S1x1x200x256.size a ≤ S7x7x200x256.size a
  inb_S7x7x256x168_S1x1x256x168_1_4_0_0 : ∀ a, (![1, 4, 0, 0] : Fin 4 → Nat) a + S1x1x256x168.size a ≤ S7x7x256x168.size a
  inb_S7x7x200x256_S1x1x200x256_4_2_0_0 : ∀ a, (![4, 2, 0, 0] : Fin 4 → Nat) a + S1x1x200x256.size a ≤ S7x7x200x256.size a
  inb_S7x7x256x168_S1x1x256x168_2_4_0_0 : ∀ a, (![2, 4, 0, 0] : Fin 4 → Nat) a + S1x1x256x168.size a ≤ S7x7x256x168.size a
  inb_S7x7x200x256_S1x1x200x256_4_3_0_0 : ∀ a, (![4, 3, 0, 0] : Fin 4 → Nat) a + S1x1x200x256.size a ≤ S7x7x200x256.size a
  inb_S7x7x256x168_S1x1x256x168_3_4_0_0 : ∀ a, (![3, 4, 0, 0] : Fin 4 → Nat) a + S1x1x256x168.size a ≤ S7x7x256x168.size a
  inb_S7x7x200x256_S1x1x200x256_4_4_0_0 : ∀ a, (![4, 4, 0, 0] : Fin 4 → Nat) a + S1x1x200x256.size a ≤ S7x7x200x256.size a
  inb_S7x7x256x168_S1x1x256x168_4_4_0_0 : ∀ a, (![4, 4, 0, 0] : Fin 4 → Nat) a + S1x1x256x168.size a ≤ S7x7x256x168.size a
  inb_S7x7x200x256_S1x1x200x256_4_5_0_0 : ∀ a, (![4, 5, 0, 0] : Fin 4 → Nat) a + S1x1x200x256.size a ≤ S7x7x200x256.size a
  inb_S7x7x256x168_S1x1x256x168_5_4_0_0 : ∀ a, (![5, 4, 0, 0] : Fin 4 → Nat) a + S1x1x256x168.size a ≤ S7x7x256x168.size a
  inb_S7x7x200x256_S1x1x200x256_4_6_0_0 : ∀ a, (![4, 6, 0, 0] : Fin 4 → Nat) a + S1x1x200x256.size a ≤ S7x7x200x256.size a
  inb_S7x7x256x168_S1x1x256x168_6_4_0_0 : ∀ a, (![6, 4, 0, 0] : Fin 4 → Nat) a + S1x1x256x168.size a ≤ S7x7x256x168.size a
  inb_S7x7x200x256_S1x1x200x256_5_0_0_0 : ∀ a, (![5, 0, 0, 0] : Fin 4 → Nat) a + S1x1x200x256.size a ≤ S7x7x200x256.size a
  inb_S7x7x256x168_S1x1x256x168_0_5_0_0 : ∀ a, (![0, 5, 0, 0] : Fin 4 → Nat) a + S1x1x256x168.size a ≤ S7x7x256x168.size a
  inb_S7x7x200x256_S1x1x200x256_5_1_0_0 : ∀ a, (![5, 1, 0, 0] : Fin 4 → Nat) a + S1x1x200x256.size a ≤ S7x7x200x256.size a
  inb_S7x7x256x168_S1x1x256x168_1_5_0_0 : ∀ a, (![1, 5, 0, 0] : Fin 4 → Nat) a + S1x1x256x168.size a ≤ S7x7x256x168.size a
  inb_S7x7x200x256_S1x1x200x256_5_2_0_0 : ∀ a, (![5, 2, 0, 0] : Fin 4 → Nat) a + S1x1x200x256.size a ≤ S7x7x200x256.size a
  inb_S7x7x256x168_S1x1x256x168_2_5_0_0 : ∀ a, (![2, 5, 0, 0] : Fin 4 → Nat) a + S1x1x256x168.size a ≤ S7x7x256x168.size a
  inb_S7x7x200x256_S1x1x200x256_5_3_0_0 : ∀ a, (![5, 3, 0, 0] : Fin 4 → Nat) a + S1x1x200x256.size a ≤ S7x7x200x256.size a
  inb_S7x7x256x168_S1x1x256x168_3_5_0_0 : ∀ a, (![3, 5, 0, 0] : Fin 4 → Nat) a + S1x1x256x168.size a ≤ S7x7x256x168.size a
  inb_S7x7x200x256_S1x1x200x256_5_4_0_0 : ∀ a, (![5, 4, 0, 0] : Fin 4 → Nat) a + S1x1x200x256.size a ≤ S7x7x200x256.size a
  inb_S7x7x256x168_S1x1x256x168_4_5_0_0 : ∀ a, (![4, 5, 0, 0] : Fin 4 → Nat) a + S1x1x256x168.size a ≤ S7x7x256x168.size a
  inb_S7x7x200x256_S1x1x200x256_5_5_0_0 : ∀ a, (![5, 5, 0, 0] : Fin 4 → Nat) a + S1x1x200x256.size a ≤ S7x7x200x256.size a
  inb_S7x7x256x168_S1x1x256x168_5_5_0_0 : ∀ a, (![5, 5, 0, 0] : Fin 4 → Nat) a + S1x1x256x168.size a ≤ S7x7x256x168.size a
  inb_S7x7x200x256_S1x1x200x256_5_6_0_0 : ∀ a, (![5, 6, 0, 0] : Fin 4 → Nat) a + S1x1x200x256.size a ≤ S7x7x200x256.size a
  inb_S7x7x256x168_S1x1x256x168_6_5_0_0 : ∀ a, (![6, 5, 0, 0] : Fin 4 → Nat) a + S1x1x256x168.size a ≤ S7x7x256x168.size a
  inb_S7x7x200x256_S1x1x200x256_6_0_0_0 : ∀ a, (![6, 0, 0, 0] : Fin 4 → Nat) a + S1x1x200x256.size a ≤ S7x7x200x256.size a
  inb_S7x7x256x168_S1x1x256x168_0_6_0_0 : ∀ a, (![0, 6, 0, 0] : Fin 4 → Nat) a + S1x1x256x168.size a ≤ S7x7x256x168.size a
  inb_S7x7x200x256_S1x1x200x256_6_1_0_0 : ∀ a, (![6, 1, 0, 0] : Fin 4 → Nat) a + S1x1x200x256.size a ≤ S7x7x200x256.size a
  inb_S7x7x256x168_S1x1x256x168_1_6_0_0 : ∀ a, (![1, 6, 0, 0] : Fin 4 → Nat) a + S1x1x256x168.size a ≤ S7x7x256x168.size a
  inb_S7x7x200x256_S1x1x200x256_6_2_0_0 : ∀ a, (![6, 2, 0, 0] : Fin 4 → Nat) a + S1x1x200x256.size a ≤ S7x7x200x256.size a
  inb_S7x7x256x168_S1x1x256x168_2_6_0_0 : ∀ a, (![2, 6, 0, 0] : Fin 4 → Nat) a + S1x1x256x168.size a ≤ S7x7x256x168.size a
  inb_S7x7x200x256_S1x1x200x256_6_3_0_0 : ∀ a, (![6, 3, 0, 0] : Fin 4 → Nat) a + S1x1x200x256.size a ≤ S7x7x200x256.size a
  inb_S7x7x256x168_S1x1x256x168_3_6_0_0 : ∀ a, (![3, 6, 0, 0] : Fin 4 → Nat) a + S1x1x256x168.size a ≤ S7x7x256x168.size a
  inb_S7x7x200x256_S1x1x200x256_6_4_0_0 : ∀ a, (![6, 4, 0, 0] : Fin 4 → Nat) a + S1x1x200x256.size a ≤ S7x7x200x256.size a
  inb_S7x7x256x168_S1x1x256x168_4_6_0_0 : ∀ a, (![4, 6, 0, 0] : Fin 4 → Nat) a + S1x1x256x168.size a ≤ S7x7x256x168.size a
  inb_S7x7x200x256_S1x1x200x256_6_5_0_0 : ∀ a, (![6, 5, 0, 0] : Fin 4 → Nat) a + S1x1x200x256.size a ≤ S7x7x200x256.size a
  inb_S7x7x256x168_S1x1x256x168_5_6_0_0 : ∀ a, (![5, 6, 0, 0] : Fin 4 → Nat) a + S1x1x256x168.size a ≤ S7x7x256x168.size a
  inb_S7x7x200x256_S1x1x200x256_6_6_0_0 : ∀ a, (![6, 6, 0, 0] : Fin 4 → Nat) a + S1x1x200x256.size a ≤ S7x7x200x256.size a
  inb_S7x7x256x168_S1x1x256x168_6_6_0_0 : ∀ a, (![6, 6, 0, 0] : Fin 4 → Nat) a + S1x1x256x168.size a ≤ S7x7x256x168.size a
  inb_S200x168_S200x168_0_0 : ∀ a, (![0, 0] : Fin 2 → Nat) a + S200x168.size a ≤ S200x168.size a
  h_S200x168 : 0 < S200x168.numel
  slices_S5000x168_S5000x32_0_0 : S5000x168.Slices ![0, 0] S5000x32
  slices_S5000x168_S5000x124_0_32 : S5000x168.Slices ![0, 32] S5000x124
  slices_S5000x168_S5000x3_0_156 : S5000x168.Slices ![0, 156] S5000x3
  slices_S5000x168_S5000x7_0_159 : S5000x168.Slices ![0, 159] S5000x7
  slices_S5000x168_S5000x2_0_166 : S5000x168.Slices ![0, 166] S5000x2
  dot_S200x256_S256x168_S200x168_1_0_0_1_n_n_wf : DotDims.WF S200x256 S256x168 S200x168 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x200x256.size a ≤ S7x7x5000x256.size a
  hwx0_0 : ∀ i : grid0.Coords, EltTy.bits .f32 = 32 ∨ (Rect.block (s := S7x7x5000x256) S7x7x200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x7x256x168.size a ≤ S7x7x256x168.size a
  hwx0_1 : ∀ i : grid0.Coords, EltTy.bits .bf16 = 32 ∨ (Rect.block (s := S7x7x256x168) S7x7x256x168.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x168.size a ≤ S5000x168.size a
  hwx0_3 : ∀ i : grid0.Coords, EltTy.bits .f32 = 32 ∨ (Rect.block (s := S5000x168) S200x168.size (cc0_transform_3 i) (hinb0_3 i)).WholeWords (EltTy.packing .f32)

variable [Facts₀]

def dot_S200x256_S256x168_S200x168_1_0_0_1_n_n : DotDims S200x256 S256x168 S200x168 where
  lhsContracting := [1]
  rhsContracting := [0]
  lhsNonContracting := [0]
  rhsNonContracting := [1]
  lhsBatch := []
  rhsBatch := []
  wf := dot_S200x256_S256x168_S200x168_1_0_0_1_n_n_wf

abbrev win0_0 : Pipeline.Window sig grid0 :=
  Pipeline.Window.ofSpec (Memref.whole main_v0) S7x7x200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S7x7x256x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S200x168.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S5000x256x7x7 : Shape := ⟨4, ![5000, 256, 7, 7]⟩
abbrev S32x12544 : Shape := ⟨2, ![32, 12544]⟩
abbrev S32 : Shape := ⟨1, ![32]⟩
abbrev S124x12544 : Shape := ⟨2, ![124, 12544]⟩
abbrev S124 : Shape := ⟨1, ![124]⟩
abbrev S3x12544 : Shape := ⟨2, ![3, 12544]⟩
abbrev S3 : Shape := ⟨1, ![3]⟩
abbrev S7x12544 : Shape := ⟨2, ![7, 12544]⟩
abbrev S7 : Shape := ⟨1, ![7]⟩
abbrev S2x12544 : Shape := ⟨2, ![2, 12544]⟩
abbrev S2 : Shape := ⟨1, ![2]⟩
abbrev S5000x12544 : Shape := ⟨2, ![5000, 12544]⟩
abbrev S12544x32 : Shape := ⟨2, ![12544, 32]⟩
abbrev S5000x32 : Shape := ⟨2, ![5000, 32]⟩
abbrev S1x32 : Shape := ⟨2, ![1, 32]⟩
abbrev S12544x124 : Shape := ⟨2, ![12544, 124]⟩
abbrev S5000x124 : Shape := ⟨2, ![5000, 124]⟩
abbrev S1x124 : Shape := ⟨2, ![1, 124]⟩
abbrev S12544x3 : Shape := ⟨2, ![12544, 3]⟩
abbrev S5000x3 : Shape := ⟨2, ![5000, 3]⟩
abbrev S1x3 : Shape := ⟨2, ![1, 3]⟩
abbrev S12544x7 : Shape := ⟨2, ![12544, 7]⟩
abbrev S5000x7 : Shape := ⟨2, ![5000, 7]⟩
abbrev S1x7 : Shape := ⟨2, ![1, 7]⟩
abbrev S12544x2 : Shape := ⟨2, ![12544, 2]⟩
abbrev S5000x2 : Shape := ⟨2, ![5000, 2]⟩
abbrev S1x2 : Shape := ⟨2, ![1, 2]⟩

abbrev nBuf : Space → Nat
  | .hbm => 37
  | .vmem => 0
  | .smem => 0
  | _ => 0

abbrev bufTy : (tb : Table) → Fin (tcTables nBuf tb) → BufTy
  | .hbm, ⟨0, _⟩ => ⟨S5000x256x7x7, .f32⟩
  | .hbm, ⟨1, _⟩ => ⟨S32x12544, .f32⟩
  | .hbm, ⟨2, _⟩ => ⟨S32, .f32⟩
  | .hbm, ⟨3, _⟩ => ⟨S124x12544, .f32⟩
  | .hbm, ⟨4, _⟩ => ⟨S124, .f32⟩
  | .hbm, ⟨5, _⟩ => ⟨S3x12544, .f32⟩
  | .hbm, ⟨6, _⟩ => ⟨S3, .f32⟩
  | .hbm, ⟨7, _⟩ => ⟨S7x12544, .f32⟩
  | .hbm, ⟨8, _⟩ => ⟨S7, .f32⟩
  | .hbm, ⟨9, _⟩ => ⟨S2x12544, .f32⟩
  | .hbm, ⟨10, _⟩ => ⟨S2, .f32⟩
  | .hbm, ⟨11, _⟩ => ⟨S5000x12544, .f32⟩
  | .hbm, ⟨12, _⟩ => ⟨S12544x32, .f32⟩
  | .hbm, ⟨13, _⟩ => ⟨S5000x32, .f32⟩
  | .hbm, ⟨14, _⟩ => ⟨S1x32, .f32⟩
  | .hbm, ⟨15, _⟩ => ⟨S5000x32, .f32⟩
  | .hbm, ⟨16, _⟩ => ⟨S5000x32, .f32⟩
  | .hbm, ⟨17, _⟩ => ⟨S12544x124, .f32⟩
  | .hbm, ⟨18, _⟩ => ⟨S5000x124, .f32⟩
  | .hbm, ⟨19, _⟩ => ⟨S1x124, .f32⟩
  | .hbm, ⟨20, _⟩ => ⟨S5000x124, .f32⟩
  | .hbm, ⟨21, _⟩ => ⟨S5000x124, .f32⟩
  | .hbm, ⟨22, _⟩ => ⟨S12544x3, .f32⟩
  | .hbm, ⟨23, _⟩ => ⟨S5000x3, .f32⟩
  | .hbm, ⟨24, _⟩ => ⟨S1x3, .f32⟩
  | .hbm, ⟨25, _⟩ => ⟨S5000x3, .f32⟩
  | .hbm, ⟨26, _⟩ => ⟨S5000x3, .f32⟩
  | .hbm, ⟨27, _⟩ => ⟨S12544x7, .f32⟩
  | .hbm, ⟨28, _⟩ => ⟨S5000x7, .f32⟩
  | .hbm, ⟨29, _⟩ => ⟨S1x7, .f32⟩
  | .hbm, ⟨30, _⟩ => ⟨S5000x7, .f32⟩
  | .hbm, ⟨31, _⟩ => ⟨S5000x7, .f32⟩
  | .hbm, ⟨32, _⟩ => ⟨S12544x2, .f32⟩
  | .hbm, ⟨33, _⟩ => ⟨S5000x2, .f32⟩
  | .hbm, ⟨34, _⟩ => ⟨S1x2, .f32⟩
  | .hbm, ⟨35, _⟩ => ⟨S5000x2, .f32⟩
  | .hbm, ⟨36, _⟩ => ⟨S5000x2, .f32⟩
  | _, _ => ⟨S5000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  shapeCasts_S5000x256x7x7_S5000x12544 : S5000x256x7x7.ShapeCasts S5000x12544
  transposes_S32x12544_S12544x32_1_0 : S32x12544.Transposes [1, 0] S12544x32
  bcast_S32_S1x32_1 : S32.BroadcastsInDim S1x32 (![1] : Fin 1 → Fin S1x32.rank)
  bcast_S1x32_S5000x32_0_1 : S1x32.BroadcastsInDim S5000x32 (![0, 1] : Fin 2 → Fin S5000x32.rank)
  transposes_S124x12544_S12544x124_1_0 : S124x12544.Transposes [1, 0] S12544x124
  bcast_S124_S1x124_1 : S124.BroadcastsInDim S1x124 (![1] : Fin 1 → Fin S1x124.rank)
  bcast_S1x124_S5000x124_0_1 : S1x124.BroadcastsInDim S5000x124 (![0, 1] : Fin 2 → Fin S5000x124.rank)
  transposes_S3x12544_S12544x3_1_0 : S3x12544.Transposes [1, 0] S12544x3
  bcast_S3_S1x3_1 : S3.BroadcastsInDim S1x3 (![1] : Fin 1 → Fin S1x3.rank)
  bcast_S1x3_S5000x3_0_1 : S1x3.BroadcastsInDim S5000x3 (![0, 1] : Fin 2 → Fin S5000x3.rank)
  transposes_S7x12544_S12544x7_1_0 : S7x12544.Transposes [1, 0] S12544x7
  bcast_S7_S1x7_1 : S7.BroadcastsInDim S1x7 (![1] : Fin 1 → Fin S1x7.rank)
  bcast_S1x7_S5000x7_0_1 : S1x7.BroadcastsInDim S5000x7 (![0, 1] : Fin 2 → Fin S5000x7.rank)
  transposes_S2x12544_S12544x2_1_0 : S2x12544.Transposes [1, 0] S12544x2
  bcast_S2_S1x2_1 : S2.BroadcastsInDim S1x2 (![1] : Fin 1 → Fin S1x2.rank)
  bcast_S1x2_S5000x2_0_1 : S1x2.BroadcastsInDim S5000x2 (![0, 1] : Fin 2 → Fin S5000x2.rank)
  dot_S5000x12544_S12544x32_S5000x32_1_0_0_1_n_n_wf : DotDims.WF S5000x12544 S12544x32 S5000x32 [1] [0] [0] [1] [] []
  dot_S5000x12544_S12544x124_S5000x124_1_0_0_1_n_n_wf : DotDims.WF S5000x12544 S12544x124 S5000x124 [1] [0] [0] [1] [] []
  dot_S5000x12544_S12544x3_S5000x3_1_0_0_1_n_n_wf : DotDims.WF S5000x12544 S12544x3 S5000x3 [1] [0] [0] [1] [] []
  dot_S5000x12544_S12544x7_S5000x7_1_0_0_1_n_n_wf : DotDims.WF S5000x12544 S12544x7 S5000x7 [1] [0] [0] [1] [] []
  dot_S5000x12544_S12544x2_S5000x2_1_0_0_1_n_n_wf : DotDims.WF S5000x12544 S12544x2 S5000x2 [1] [0] [0] [1] [] []

variable [Facts₀]

def dot_S5000x12544_S12544x32_S5000x32_1_0_0_1_n_n : DotDims S5000x12544 S12544x32 S5000x32 where
  lhsContracting := [1]
  rhsContracting := [0]
  lhsNonContracting := [0]
  rhsNonContracting := [1]
  lhsBatch := []
  rhsBatch := []
  wf := dot_S5000x12544_S12544x32_S5000x32_1_0_0_1_n_n_wf
def dot_S5000x12544_S12544x124_S5000x124_1_0_0_1_n_n : DotDims S5000x12544 S12544x124 S5000x124 where
  lhsContracting := [1]
  rhsContracting := [0]
  lhsNonContracting := [0]
  rhsNonContracting := [1]
  lhsBatch := []
  rhsBatch := []
  wf := dot_S5000x12544_S12544x124_S5000x124_1_0_0_1_n_n_wf
def dot_S5000x12544_S12544x3_S5000x3_1_0_0_1_n_n : DotDims S5000x12544 S12544x3 S5000x3 where
  lhsContracting := [1]
  rhsContracting := [0]
  lhsNonContracting := [0]
  rhsNonContracting := [1]
  lhsBatch := []
  rhsBatch := []
  wf := dot_S5000x12544_S12544x3_S5000x3_1_0_0_1_n_n_wf
def dot_S5000x12544_S12544x7_S5000x7_1_0_0_1_n_n : DotDims S5000x12544 S12544x7 S5000x7 where
  lhsContracting := [1]
  rhsContracting := [0]
  lhsNonContracting := [0]
  rhsNonContracting := [1]
  lhsBatch := []
  rhsBatch := []
  wf := dot_S5000x12544_S12544x7_S5000x7_1_0_0_1_n_n_wf
def dot_S5000x12544_S12544x2_S5000x2_1_0_0_1_n_n : DotDims S5000x12544 S12544x2 S5000x2 where
  lhsContracting := [1]
  rhsContracting := [0]
  lhsNonContracting := [0]
  rhsNonContracting := [1]
  lhsBatch := []
  rhsBatch := []
  wf := dot_S5000x12544_S12544x2_S5000x2_1_0_0_1_n_n_wf

class Facts : Prop extends Facts₀ where

variable [Facts]
-- ==== Proof.FrameMainB.lean ====
/-
  The program around its one pallas_call.

  @main is seven host operations (a transpose of the feature maps to [7, 7, 5000, 256]; the five weight matrices
  stacked into one [168, 12544] matrix, rounded, reshaped to [168, 256, 7, 7] and transposed to [7, 7, 256, 168]; the
  five biases stacked and laid as a row [1, 168]), the pipelined region, and five column slices of its [5000, 168]
  result.  None of these operations writes an argument array, so the region finds each argument as launched and the
  program ends with each argument as launched.  Here: the buffers' contents when the region is entered (`V`), the
  program as "host lines, region, host lines", what the lines after the region may touch, every argument array
  before and after, each window's block at a grid point, and the frame statement from a run of the region.
-/
import proofs.«118944_g14216341750014_cont_week2b_1508_5_alg».proof.Proof.Gen.Kernel.Launch
import proofs.«118944_g14216341750014_cont_week2b_1508_5_alg».proof.Proof.Gen.Kernel.Skeleton
import proofs.«118944_g14216341750014_cont_week2b_1508_5_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the region -/

/-- Core `c`'s buffer contents when the region is entered: the launch memory after the seven host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The five slices touch only unscoped TensorCore buffers: the region's result array and their own results. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays: as launched when the region is entered, and as launched at the end -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the
    block index has not moved since it was fetched, for any proof data over these arrays whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or the
    block index has not moved since it was fetched, for any proof data over these arrays whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or the
    block index has not moved since it was fetched, for any proof data over these arrays whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the region -/

/-- For any proof data over the region-entry arrays, a run that ends with every array at what the proof data says and
    every other unscoped buffer as the lines after the region leave it ends with every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

end Cert.Kernel.Fr

end
-- ==== Proof.FrameBodyB.lean ====
/-
  What the kernel body leaves in the result window's buffer.

  The body reads the bias row, then for each of the 49 spatial positions (i, j), in row-major order, loads the
  [200, 256] slab (i, j) of the feature block and the [256, 168] slab (j, i) of the weights, rounds the features,
  multiplies the two slabs and adds the product to the running total, which starts at the bias row repeated down
  the 200 rows; the total is stored whole into the [200, 168] result buffer.  `total` is that value as a function
  of the three input buffers' contents, stage by stage through the printed payload functions; `out0_3` is the result
  buffer's contents after the one covering store; `sound_kernel` is the body's triple.
-/
import proofs.«118944_g14216341750014_cont_week2b_1508_5_alg».proof.Proof.FrameMainB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

open Lean in
/-- Slab `(i, j)` of the feature block: the rectangle `[i, j, 0 … 200, 0 … 256]`. -/
local macro "rX%" i:num j:num : term => do
  let n := mkIdent (Name.mkStr (Name.mkStr (Name.mkStr (Name.mkSimple "Cert") "Kernel") "Gen") s!"inb_S7x7x200x256_S1x1x200x256_{i.getNat}_{j.getNat}_0_0")
  `(Rect.unit (s := S7x7x200x256) ![$i, $j, 0, 0] S1x1x200x256.size $n)

open Lean in
/-- Slab `(a, b)` of the weights: the rectangle `[a, b, 0 … 256, 0 … 168]`. -/
local macro "rW%" a:num b:num : term => do
  let n := mkIdent (Name.mkStr (Name.mkStr (Name.mkStr (Name.mkSimple "Cert") "Kernel") "Gen") s!"inb_S7x7x256x168_S1x1x256x168_{a.getNat}_{b.getNat}_0_0")
  `(Rect.unit (s := S7x7x256x168) ![$a, $b, 0, 0] S1x1x256x168.size $n)

/-- The whole bias row and the whole result buffer. -/
abbrev rB : Rect S1x168 := Rect.unit (s := S1x168) ![0, 0] S1x168.size Cert.Kernel.Gen.inb_S1x168_S1x168_0_0
abbrev rO : Rect S200x168 := Rect.unit (s := S200x168) ![0, 0] S200x168.size Cert.Kernel.Gen.inb_S200x168_S200x168_0_0

section Total

variable (x0 : Vec F S7x7x200x256 .f32) (x1 : Vec F S7x7x256x168 .bf16) (x2 : Vec F S1x168 .f32)

/-- The running total after positions (0,0) … (0,2), and the feature slab (0,3) already cast. -/
def t1 : FVec F S200x168 .f32 :=
  k0_pay2 (View.ld x2 rB) (View.ld x0 (rX% 0 0)) (View.ld x1 (rW% 0 0)) (View.ld x0 (rX% 0 1)) (View.ld x1 (rW% 1 0))
    (View.ld x0 (rX% 0 2)) (View.ld x1 (rW% 2 0))
/-- … after (0,3) … (0,6). -/
def t2 : FVec F S200x168 .f32 :=
  k0_pay4 (t1 x0 x1 x2) (k0_pay3 (View.ld x0 (rX% 0 3))) (View.ld x1 (rW% 3 0)) (View.ld x0 (rX% 0 4)) (View.ld x1 (rW% 4 0))
    (View.ld x0 (rX% 0 5)) (View.ld x1 (rW% 5 0)) (View.ld x0 (rX% 0 6)) (View.ld x1 (rW% 6 0))
/-- … after (1,0) … (1,2). -/
def t3 : FVec F S200x168 .f32 :=
  k0_pay5 (t2 x0 x1 x2) (View.ld x0 (rX% 1 0)) (View.ld x1 (rW% 0 1)) (View.ld x0 (rX% 1 1)) (View.ld x1 (rW% 1 1))
    (View.ld x0 (rX% 1 2)) (View.ld x1 (rW% 2 1))
/-- … after (1,3) … (1,6). -/
def t4 : FVec F S200x168 .f32 :=
  k0_pay8 (t3 x0 x1 x2) (k0_pay6 (View.ld x0 (rX% 1 3))) (k0_pay7 (View.ld x1 (rW% 3 1))) (constant S200x168 .f32 0x00000000#32)
    (View.ld x0 (rX% 1 4)) (View.ld x1 (rW% 4 1)) (View.ld x0 (rX% 1 5)) (View.ld x1 (rW% 5 1)) (View.ld x0 (rX% 1 6)) (View.ld x1 (rW% 6 1))
/-- … after (2,0) … (2,3). -/
def t5 : FVec F S200x168 .f32 :=
  k0_pay10 (t4 x0 x1 x2) (k0_pay9 (View.ld x0 (rX% 2 0))) (View.ld x1 (rW% 0 2)) (View.ld x0 (rX% 2 1)) (View.ld x1 (rW% 1 2))
    (View.ld x0 (rX% 2 2)) (View.ld x1 (rW% 2 2)) (View.ld x0 (rX% 2 3)) (View.ld x1 (rW% 3 2))
/-- … after (2,4) … (3,0). -/
def t6 : FVec F S200x168 .f32 :=
  k0_pay12 (t5 x0 x1 x2) (k0_pay11 (View.ld x0 (rX% 2 4))) (View.ld x1 (rW% 4 2)) (View.ld x0 (rX% 2 5)) (View.ld x1 (rW% 5 2))
    (View.ld x0 (rX% 2 6)) (View.ld x1 (rW% 6 2)) (View.ld x0 (rX% 3 0)) (View.ld x1 (rW% 0 3))
/-- … after (3,1) … (3,3). -/
def t7 : FVec F S200x168 .f32 :=
  k0_pay13 (t6 x0 x1 x2) (View.ld x0 (rX% 3 1)) (View.ld x1 (rW% 1 3)) (View.ld x0 (rX% 3 2)) (View.ld x1 (rW% 2 3))
    (View.ld x0 (rX% 3 3)) (View.ld x1 (rW% 3 3))
/-- … after (3,4) … (4,0). -/
def t8 : FVec F S200x168 .f32 :=
  k0_pay16 (t7 x0 x1 x2) (k0_pay14 (View.ld x0 (rX% 3 4))) (k0_pay15 (View.ld x1 (rW% 4 3))) (constant S200x168 .f32 0x00000000#32)
    (View.ld x0 (rX% 3 5)) (View.ld x1 (rW% 5 3)) (View.ld x0 (rX% 3 6)) (View.ld x1 (rW% 6 3)) (View.ld x0 (rX% 4 0)) (View.ld x1 (rW% 0 4))
/-- … after (4,1) … (4,4). -/
def t9 : FVec F S200x168 .f32 :=
  k0_pay18 (t8 x0 x1 x2) (k0_pay17 (View.ld x0 (rX% 4 1))) (View.ld x1 (rW% 1 4)) (View.ld x0 (rX% 4 2)) (View.ld x1 (rW% 2 4))
    (View.ld x0 (rX% 4 3)) (View.ld x1 (rW% 3 4)) (View.ld x0 (rX% 4 4)) (View.ld x1 (rW% 4 4))
/-- … after (4,5) … (5,1). -/
def t10 : FVec F S200x168 .f32 :=
  k0_pay20 (t9 x0 x1 x2) (k0_pay19 (View.ld x0 (rX% 4 5))) (View.ld x1 (rW% 5 4)) (View.ld x0 (rX% 4 6)) (View.ld x1 (rW% 6 4))
    (View.ld x0 (rX% 5 0)) (View.ld x1 (rW% 0 5)) (View.ld x0 (rX% 5 1)) (View.ld x1 (rW% 1 5))
/-- … after (5,2) … (5,4). -/
def t11 : FVec F S200x168 .f32 :=
  k0_pay21 (t10 x0 x1 x2) (View.ld x0 (rX% 5 2)) (View.ld x1 (rW% 2 5)) (View.ld x0 (rX% 5 3)) (View.ld x1 (rW% 3 5))
    (View.ld x0 (rX% 5 4)) (View.ld x1 (rW% 4 5))
/-- … after (5,5) … (6,1). -/
def t12 : FVec F S200x168 .f32 :=
  k0_pay24 (t11 x0 x1 x2) (k0_pay22 (View.ld x0 (rX% 5 5))) (k0_pay23 (View.ld x1 (rW% 5 5))) (constant S200x168 .f32 0x00000000#32)
    (View.ld x0 (rX% 5 6)) (View.ld x1 (rW% 6 5)) (View.ld x0 (rX% 6 0)) (View.ld x1 (rW% 0 6)) (View.ld x0 (rX% 6 1)) (View.ld x1 (rW% 1 6))
/-- … after (6,2) … (6,5). -/
def t13 : FVec F S200x168 .f32 :=
  k0_pay26 (t12 x0 x1 x2) (k0_pay25 (View.ld x0 (rX% 6 2))) (View.ld x1 (rW% 2 6)) (View.ld x0 (rX% 6 3)) (View.ld x1 (rW% 3 6))
    (View.ld x0 (rX% 6 4)) (View.ld x1 (rW% 4 6)) (View.ld x0 (rX% 6 5)) (View.ld x1 (rW% 5 6))
/-- The total after all 49 positions: the value the body stores. -/
def total : FVec F S200x168 .f32 :=
  k0_pay1 (t13 x0 x1 x2) (k0_pay27 (View.ld x0 (rX% 6 6))) (View.ld x1 (rW% 6 6))

/-- The result window's buffer after the body: its one store, of `total`, which covers the buffer. -/
def out0_3 : Vec F S200x168 .f32 :=
  View.canon [⟨rO, total x0 x1 x2⟩]

end Total

/-- The one store covers the result buffer. -/
theorem cover0_3 (p0 : Vec F S200x168 .f32) (y : S200x168.Idx) :
    ∃ pc ∈ ([⟨rO, p0⟩] : List (View.Piece (Elt F) S200x168 .f32)), y ∈ pc.1.set :=
  View.cover_of_tiled [⟨rO, p0⟩] S200x168.size (by rfl) y

/-! ## The body's triple -/

set_option maxHeartbeats 4000000 in
/-- The body on whole staging buffers — the three inputs' at contents `x0`, `x1`, `x2`, the result's at anything — runs
    to the continuation with the inputs' as they were and the result's at `out0_3` of them. -/
theorem sound_kernel (c : Dev nD) (E : Set ℕ) (i : grid0.Coords)
    (arg1 : Memref sig .tc .vmem S7x7x200x256 .f32) (harg1 : arg1.IsWhole) (arg2 : Memref sig .tc .vmem S7x7x256x168 .bf16) (harg2 : arg2.IsWhole)
    (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_heads_kernel i arg1 harg1 arg2 harg2 arg3 harg3 arg4 harg4) K := by
  simp only [cc0__fused_heads_kernel_eq_skeleton]; unfold cc0__fused_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Fr

end
-- ==== Proof.FrameRunB.lean ====
/-
  The run of the program and its frame.

  The proof data of the one pipeline: its four arrays are the buffers as the region finds them; after the body at grid
  point `t` each of the three input windows' buffers still holds its block at `t` and the result window's buffer holds
  `out0_3` of the three input blocks; nothing else is touched.  The body obligation at a point is the body's triple at
  those blocks.  The run: @main terminates, each of the region's arrays ends at what the proof data says, every other
  buffer as the five slices leave it; in particular every argument array ends as launched.
-/
import proofs.«118944_g14216341750014_cont_week2b_1508_5_alg».proof.Proof.FrameBodyB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` each input's buffer at its block, the result's at
    `out0_3` of the input blocks; the invariant the untouched rest; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the proof data computes and every other unscoped buffer as the five slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.FrameMainI.lean ====
/-
  The program around its one pallas_call.

  @main is seven host operations (a transpose of the feature maps to [7, 7, 5000, 256]; the five weight matrices
  stacked into one [168, 12544] matrix, rounded, reshaped to [168, 256, 7, 7] and transposed to [7, 7, 256, 168]; the
  five biases stacked and laid as a row [1, 168]), the pipelined region, and five column slices of its [5000, 168]
  result.  None of these operations writes an argument array, so the region finds each argument as launched and the
  program ends with each argument as launched.  Here: the buffers' contents when the region is entered (`V`), the
  program as "host lines, region, host lines", what the lines after the region may touch, every argument array
  before and after, each window's block at a grid point, and the frame statement from a run of the region.
-/
import proofs.«118944_g14216341750014_cont_week2b_1508_5_alg».proof.Proof.Gen.KernelIdeal.Launch
import proofs.«118944_g14216341750014_cont_week2b_1508_5_alg».proof.Proof.Gen.KernelIdeal.Skeleton
import proofs.«118944_g14216341750014_cont_week2b_1508_5_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the region -/

/-- Core `c`'s buffer contents when the region is entered: the launch memory after the seven host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The five slices touch only unscoped TensorCore buffers: the region's result array and their own results. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays: as launched when the region is entered, and as launched at the end -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the
    block index has not moved since it was fetched, for any proof data over these arrays whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or the
    block index has not moved since it was fetched, for any proof data over these arrays whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or the
    block index has not moved since it was fetched, for any proof data over these arrays whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the region -/

/-- For any proof data over the region-entry arrays, a run that ends with every array at what the proof data says and
    every other unscoped buffer as the lines after the region leave it ends with every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

end Cert.KernelIdeal.Fr

end
-- ==== Proof.FrameBodyI.lean ====
/-
  What the kernel body leaves in the result window's buffer.

  The body reads the bias row, then for each of the 49 spatial positions (i, j), in row-major order, loads the
  [200, 256] slab (i, j) of the feature block and the [256, 168] slab (j, i) of the weights, rounds the features,
  multiplies the two slabs and adds the product to the running total, which starts at the bias row repeated down
  the 200 rows; the total is stored whole into the [200, 168] result buffer.  `total` is that value as a function
  of the three input buffers' contents, stage by stage through the printed payload functions; `out0_3` is the result
  buffer's contents after the one covering store; `sound_kernel` is the body's triple.
-/
import proofs.«118944_g14216341750014_cont_week2b_1508_5_alg».proof.Proof.FrameMainI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

open Lean in
/-- Slab `(i, j)` of the feature block: the rectangle `[i, j, 0 … 200, 0 … 256]`. -/
local macro "rX%" i:num j:num : term => do
  let n := mkIdent (Name.mkStr (Name.mkStr (Name.mkStr (Name.mkSimple "Cert") "KernelIdeal") "Gen") s!"inb_S7x7x200x256_S1x1x200x256_{i.getNat}_{j.getNat}_0_0")
  `(Rect.unit (s := S7x7x200x256) ![$i, $j, 0, 0] S1x1x200x256.size $n)

open Lean in
/-- Slab `(a, b)` of the weights: the rectangle `[a, b, 0 … 256, 0 … 168]`. -/
local macro "rW%" a:num b:num : term => do
  let n := mkIdent (Name.mkStr (Name.mkStr (Name.mkStr (Name.mkSimple "Cert") "KernelIdeal") "Gen") s!"inb_S7x7x256x168_S1x1x256x168_{a.getNat}_{b.getNat}_0_0")
  `(Rect.unit (s := S7x7x256x168) ![$a, $b, 0, 0] S1x1x256x168.size $n)

/-- The whole bias row and the whole result buffer. -/
abbrev rB : Rect S1x168 := Rect.unit (s := S1x168) ![0, 0] S1x168.size Cert.KernelIdeal.Gen.inb_S1x168_S1x168_0_0
abbrev rO : Rect S200x168 := Rect.unit (s := S200x168) ![0, 0] S200x168.size Cert.KernelIdeal.Gen.inb_S200x168_S200x168_0_0

section Total

variable (x0 : Vec F S7x7x200x256 .f32) (x1 : Vec F S7x7x256x168 .bf16) (x2 : Vec F S1x168 .f32)

/-- The running total after positions (0,0) … (0,2), and the feature slab (0,3) already cast. -/
def t1 : FVec F S200x168 .f32 :=
  k0_pay2 (View.ld x2 rB) (View.ld x0 (rX% 0 0)) (View.ld x1 (rW% 0 0)) (View.ld x0 (rX% 0 1)) (View.ld x1 (rW% 1 0))
    (View.ld x0 (rX% 0 2)) (View.ld x1 (rW% 2 0))
/-- … after (0,3) … (0,6). -/
def t2 : FVec F S200x168 .f32 :=
  k0_pay4 (t1 x0 x1 x2) (k0_pay3 (View.ld x0 (rX% 0 3))) (View.ld x1 (rW% 3 0)) (View.ld x0 (rX% 0 4)) (View.ld x1 (rW% 4 0))
    (View.ld x0 (rX% 0 5)) (View.ld x1 (rW% 5 0)) (View.ld x0 (rX% 0 6)) (View.ld x1 (rW% 6 0))
/-- … after (1,0) … (1,2). -/
def t3 : FVec F S200x168 .f32 :=
  k0_pay5 (t2 x0 x1 x2) (View.ld x0 (rX% 1 0)) (View.ld x1 (rW% 0 1)) (View.ld x0 (rX% 1 1)) (View.ld x1 (rW% 1 1))
    (View.ld x0 (rX% 1 2)) (View.ld x1 (rW% 2 1))
/-- … after (1,3) … (1,6). -/
def t4 : FVec F S200x168 .f32 :=
  k0_pay8 (t3 x0 x1 x2) (k0_pay6 (View.ld x0 (rX% 1 3))) (k0_pay7 (View.ld x1 (rW% 3 1))) (constant S200x168 .f32 0x00000000#32)
    (View.ld x0 (rX% 1 4)) (View.ld x1 (rW% 4 1)) (View.ld x0 (rX% 1 5)) (View.ld x1 (rW% 5 1)) (View.ld x0 (rX% 1 6)) (View.ld x1 (rW% 6 1))
/-- … after (2,0) … (2,3). -/
def t5 : FVec F S200x168 .f32 :=
  k0_pay10 (t4 x0 x1 x2) (k0_pay9 (View.ld x0 (rX% 2 0))) (View.ld x1 (rW% 0 2)) (View.ld x0 (rX% 2 1)) (View.ld x1 (rW% 1 2))
    (View.ld x0 (rX% 2 2)) (View.ld x1 (rW% 2 2)) (View.ld x0 (rX% 2 3)) (View.ld x1 (rW% 3 2))
/-- … after (2,4) … (3,0). -/
def t6 : FVec F S200x168 .f32 :=
  k0_pay12 (t5 x0 x1 x2) (k0_pay11 (View.ld x0 (rX% 2 4))) (View.ld x1 (rW% 4 2)) (View.ld x0 (rX% 2 5)) (View.ld x1 (rW% 5 2))
    (View.ld x0 (rX% 2 6)) (View.ld x1 (rW% 6 2)) (View.ld x0 (rX% 3 0)) (View.ld x1 (rW% 0 3))
/-- … after (3,1) … (3,3). -/
def t7 : FVec F S200x168 .f32 :=
  k0_pay13 (t6 x0 x1 x2) (View.ld x0 (rX% 3 1)) (View.ld x1 (rW% 1 3)) (View.ld x0 (rX% 3 2)) (View.ld x1 (rW% 2 3))
    (View.ld x0 (rX% 3 3)) (View.ld x1 (rW% 3 3))
/-- … after (3,4) … (4,0). -/
def t8 : FVec F S200x168 .f32 :=
  k0_pay16 (t7 x0 x1 x2) (k0_pay14 (View.ld x0 (rX% 3 4))) (k0_pay15 (View.ld x1 (rW% 4 3))) (constant S200x168 .f32 0x00000000#32)
    (View.ld x0 (rX% 3 5)) (View.ld x1 (rW% 5 3)) (View.ld x0 (rX% 3 6)) (View.ld x1 (rW% 6 3)) (View.ld x0 (rX% 4 0)) (View.ld x1 (rW% 0 4))
/-- … after (4,1) … (4,4). -/
def t9 : FVec F S200x168 .f32 :=
  k0_pay18 (t8 x0 x1 x2) (k0_pay17 (View.ld x0 (rX% 4 1))) (View.ld x1 (rW% 1 4)) (View.ld x0 (rX% 4 2)) (View.ld x1 (rW% 2 4))
    (View.ld x0 (rX% 4 3)) (View.ld x1 (rW% 3 4)) (View.ld x0 (rX% 4 4)) (View.ld x1 (rW% 4 4))
/-- … after (4,5) … (5,1). -/
def t10 : FVec F S200x168 .f32 :=
  k0_pay20 (t9 x0 x1 x2) (k0_pay19 (View.ld x0 (rX% 4 5))) (View.ld x1 (rW% 5 4)) (View.ld x0 (rX% 4 6)) (View.ld x1 (rW% 6 4))
    (View.ld x0 (rX% 5 0)) (View.ld x1 (rW% 0 5)) (View.ld x0 (rX% 5 1)) (View.ld x1 (rW% 1 5))
/-- … after (5,2) … (5,4). -/
def t11 : FVec F S200x168 .f32 :=
  k0_pay21 (t10 x0 x1 x2) (View.ld x0 (rX% 5 2)) (View.ld x1 (rW% 2 5)) (View.ld x0 (rX% 5 3)) (View.ld x1 (rW% 3 5))
    (View.ld x0 (rX% 5 4)) (View.ld x1 (rW% 4 5))
/-- … after (5,5) … (6,1). -/
def t12 : FVec F S200x168 .f32 :=
  k0_pay24 (t11 x0 x1 x2) (k0_pay22 (View.ld x0 (rX% 5 5))) (k0_pay23 (View.ld x1 (rW% 5 5))) (constant S200x168 .f32 0x00000000#32)
    (View.ld x0 (rX% 5 6)) (View.ld x1 (rW% 6 5)) (View.ld x0 (rX% 6 0)) (View.ld x1 (rW% 0 6)) (View.ld x0 (rX% 6 1)) (View.ld x1 (rW% 1 6))
/-- … after (6,2) … (6,5). -/
def t13 : FVec F S200x168 .f32 :=
  k0_pay26 (t12 x0 x1 x2) (k0_pay25 (View.ld x0 (rX% 6 2))) (View.ld x1 (rW% 2 6)) (View.ld x0 (rX% 6 3)) (View.ld x1 (rW% 3 6))
    (View.ld x0 (rX% 6 4)) (View.ld x1 (rW% 4 6)) (View.ld x0 (rX% 6 5)) (View.ld x1 (rW% 5 6))
/-- The total after all 49 positions: the value the body stores. -/
def total : FVec F S200x168 .f32 :=
  k0_pay1 (t13 x0 x1 x2) (k0_pay27 (View.ld x0 (rX% 6 6))) (View.ld x1 (rW% 6 6))

/-- The result window's buffer after the body: its one store, of `total`, which covers the buffer. -/
def out0_3 : Vec F S200x168 .f32 :=
  View.canon [⟨rO, total x0 x1 x2⟩]

end Total

/-- The one store covers the result buffer. -/
theorem cover0_3 (p0 : Vec F S200x168 .f32) (y : S200x168.Idx) :
    ∃ pc ∈ ([⟨rO, p0⟩] : List (View.Piece (Elt F) S200x168 .f32)), y ∈ pc.1.set :=
  View.cover_of_tiled [⟨rO, p0⟩] S200x168.size (by rfl) y

/-! ## The body's triple -/

set_option maxHeartbeats 4000000 in
/-- The body on whole staging buffers — the three inputs' at contents `x0`, `x1`, `x2`, the result's at anything — runs
    to the continuation with the inputs' as they were and the result's at `out0_3` of them. -/
theorem sound_kernel (c : Dev nD) (E : Set ℕ) (i : grid0.Coords)
    (arg1 : Memref sig .tc .vmem S7x7x200x256 .f32) (harg1 : arg1.IsWhole) (arg2 : Memref sig .tc .vmem S7x7x256x168 .bf16) (harg2 : arg2.IsWhole)
    (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_heads_kernel i arg1 harg1 arg2 harg2 arg3 harg3 arg4 harg4) K := by
  simp only [cc0__fused_heads_kernel_eq_skeleton]; unfold cc0__fused_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Fr

end
-- ==== Proof.FrameRunI.lean ====
/-
  The run of the program and its frame.

  The proof data of the one pipeline: its four arrays are the buffers as the region finds them; after the body at grid
  point `t` each of the three input windows' buffers still holds its block at `t` and the result window's buffer holds
  `out0_3` of the three input blocks; nothing else is touched.  The body obligation at a point is the body's triple at
  those blocks.  The run: @main terminates, each of the region's arrays ends at what the proof data says, every other
  buffer as the five slices leave it; in particular every argument array ends as launched.
-/
import proofs.«118944_g14216341750014_cont_week2b_1508_5_alg».proof.Proof.FrameBodyI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` each input's buffer at its block, the result's at
    `out0_3` of the input blocks; the invariant the untouched rest; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the proof data computes and every other unscoped buffer as the five slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Spec.lean ====
/-
  Five fully connected heads on one flattened feature map.

  Each RoI `n` has a feature map `x n : [256, 7, 7]`; flattened row-major it is a vector of length
  `12544 = 256 · 49`, the entry of channel `c` at spatial position `(i, j)` sitting at position
  `c · 49 + i · 7 + j` (`flat`).  A head with weights `W : [R, 12544]` and bias `b : [R]` sends RoI `n` to
  `∑ k, feat n k · W o k + b o` (`head`).

  The fused evaluation walks the 49 spatial positions in row-major order (`pairs`) and adds, position by
  position, the 256-term partial product of that position to a running total that starts at the bias
  (`accum`).  That the running total ends at `head` is a regrouping of one finite sum on the extended reals,
  where addition is commutative and associative without any finiteness assumption.
-/
import Idealize.ShloMosaic.PureOps.Ideal
import Idealize.ShloMosaic.Lib.ValueIdx

noncomputable section

namespace Cert.Heads

open Idealize.ShloMosaic Idealize.ShloMosaic.ValueIdx

/-- The feature maps: 5000 RoIs, 256 channels, 7 × 7 positions. -/
abbrev SX : Shape := ⟨4, ![5000, 256, 7, 7]⟩

/-- Position of channel `c` at spatial position `(i, j)` in the row-major flattening of `[256, 7, 7]`. -/
def flat (c : Fin 256) (i j : Fin 7) : Fin 12544 := ⟨c.val * 49 + i.val * 7 + j.val, by omega⟩

/-- The channel, the row and the column of a flattened position. -/
def chan (k : Fin 12544) : Fin 256 := ⟨k.val / 49, by omega⟩
def row (k : Fin 12544) : Fin 7 := ⟨k.val / 7 % 7, Nat.mod_lt _ (by norm_num)⟩
def col (k : Fin 12544) : Fin 7 := ⟨k.val % 7, Nat.mod_lt _ (by norm_num)⟩

/-- RoI `n`'s flattened feature vector at position `k`. -/
def feat (x : FVec Ideal SX .f32) (n : Fin 5000) (k : Fin 12544) : EReal :=
  x (ix4 n (chan k) (row k) (col k))

/-- One fully connected head: the features of RoI `n` against row `o` of the weights, plus the bias. -/
def head {R : Nat} (x : FVec Ideal SX .f32) (W : FVec Ideal ⟨2, ![R, 12544]⟩ .f32) (b : FVec Ideal ⟨1, ![R]⟩ .f32) :
    FVec Ideal ⟨2, ![5000, R]⟩ .f32 :=
  fun y => (∑ k : Fin 12544, feat x (y 0) k * W (ix2 (y 1) k)) + b (ix1 (y 1))

theorem head_apply {R : Nat} (x : FVec Ideal SX .f32) (W : FVec Ideal ⟨2, ![R, 12544]⟩ .f32) (b : FVec Ideal ⟨1, ![R]⟩ .f32)
    (n : Fin 5000) (o : Fin R) :
    head x W b (ix2 n o) = (∑ k : Fin 12544, feat x n k * W (ix2 o k)) + b (ix1 o) := rfl

/-- The 49 spatial positions in row-major order: the order in which the fused evaluation visits them. -/
def pairs : List (Fin 7 × Fin 7) :=
  [(0, 0), (0, 1), (0, 2), (0, 3), (0, 4), (0, 5), (0, 6),
   (1, 0), (1, 1), (1, 2), (1, 3), (1, 4), (1, 5), (1, 6),
   (2, 0), (2, 1), (2, 2), (2, 3), (2, 4), (2, 5), (2, 6),
   (3, 0), (3, 1), (3, 2), (3, 3), (3, 4), (3, 5), (3, 6),
   (4, 0), (4, 1), (4, 2), (4, 3), (4, 4), (4, 5), (4, 6),
   (5, 0), (5, 1), (5, 2), (5, 3), (5, 4), (5, 5), (5, 6),
   (6, 0), (6, 1), (6, 2), (6, 3), (6, 4), (6, 5), (6, 6)]

/-- The running total of the fused evaluation: start at `b`, add the contribution `t i j` of each spatial
    position in turn. -/
def accum (t : Fin 7 → Fin 7 → EReal) (b : EReal) : EReal :=
  pairs.foldl (fun a ij => a + t ij.1 ij.2) b

end Cert.Heads

end
-- ==== Proof.PayloadValue.lean ====
/-
  The stored value, entry by entry, at the ideal values.

  One step of the body adds to the running total the product of a rounded [200, 256] feature slab with a [256, 168]
  weight slab, into a zero accumulator.  At the ideal values rounding is the identity and the product at entry
  (p, q) is the 256-term sum over the contracted axis, so one step adds  Σ_c xs(0, 0, p, c) · ws(0, 0, c, q).
  The total starts at the bias row repeated down the rows: entry (p, q) of the start is the bias at (0, q).
  A slab load reads the buffer at the slab's offsets: entry (0, 0, p, c) of slab (i, j) is the buffer's (i, j, p, c).
  Hence entry (p, q) of the stored value is the running total, over the 49 positions (i, j) in row-major order, of
  Σ_c x0(i, j, p, c) · x1(j, i, c, q), started at x2(0, q).
-/
import proofs.«118944_g14216341750014_cont_week2b_1508_5_alg».proof.Proof.FrameBodyI
import proofs.«118944_g14216341750014_cont_week2b_1508_5_alg».proof.Proof.LibMatmulZero
import proofs.«118944_g14216341750014_cont_week2b_1508_5_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.ValueIdx Cert.Heads

/-- The product's dimension numbers carry the result's row to the left operand's row … -/
theorem dot_l0 : ∀ (i : (⟨2, ![200, 168]⟩ : Shape).Idx) (c : dot_S200x256_S256x168_S200x168_1_0_0_1_n_n.contr.Idx),
    (dot_S200x256_S256x168_S200x168_1_0_0_1_n_n.lhsIdx i c 0).val = (i 0).val := fun i c => by
  unfold DotDims.lhsIdx
  rw [dif_neg (show ¬(0 : Fin _) ∈ dot_S200x256_S256x168_S200x168_1_0_0_1_n_n.lhsBatch by decide),
    dif_pos (show (0 : Fin _) ∈ dot_S200x256_S256x168_S200x168_1_0_0_1_n_n.lhsNonContracting by decide)]
  rfl
/-- … and the result's column to the right operand's column. -/
theorem dot_r1 : ∀ (i : (⟨2, ![200, 168]⟩ : Shape).Idx) (c : dot_S200x256_S256x168_S200x168_1_0_0_1_n_n.contr.Idx),
    (dot_S200x256_S256x168_S200x168_1_0_0_1_n_n.rhsIdx i c 1).val = (i 1).val := fun i c => by
  unfold DotDims.rhsIdx
  rw [dif_neg (show ¬(1 : Fin _) ∈ dot_S200x256_S256x168_S200x168_1_0_0_1_n_n.rhsBatch by decide),
    dif_pos (show (1 : Fin _) ∈ dot_S200x256_S256x168_S200x168_1_0_0_1_n_n.rhsNonContracting by decide)]
  rfl

/-- A [1, 1, 200, 256] slab viewed [200, 256]: entry (p, c) is the slab's (0, 0, p, c). -/
theorem castX_apply {α : Type} (xs : S1x1x200x256.Idx → α) (h : S1x1x200x256.ShapeCasts S200x256) (p : Fin 200) (c : Fin 256) :
    shapeCast S200x256 xs h (ix2 p c) = xs (ix4 (0 : Fin 1) (0 : Fin 1) p c) :=
  shapeCast_apply xs h (ix2 p c) (ix4 (0 : Fin 1) (0 : Fin 1) p c) (by
    rw [Shape.rowMajor_val_four, Shape.rowMajor_val_two]
    simp)

/-- A [1, 1, 256, 168] slab viewed [256, 168]: entry (c, q) is the slab's (0, 0, c, q). -/
theorem castW_apply {α : Type} (ws : S1x1x256x168.Idx → α) (h : S1x1x256x168.ShapeCasts S256x168) (c : Fin 256) (q : Fin 168) :
    shapeCast S256x168 ws h (ix2 c q) = ws (ix4 (0 : Fin 1) (0 : Fin 1) c q) :=
  shapeCast_apply ws h (ix2 c q) (ix4 (0 : Fin 1) (0 : Fin 1) c q) (by
    rw [Shape.rowMajor_val_four, Shape.rowMajor_val_two]
    simp)

/-- One step of the body at entry (p, q). -/
theorem step_apply (acc : FVec Ideal S200x168 .f32) (xs : FVec Ideal S1x1x200x256 .f32) (ws : FVec Ideal S1x1x256x168 .bf16)
    (h1 : S1x1x200x256.ShapeCasts S200x256) (h2 : FTy.bits .bf16 < FTy.bits .f32) (h3 : S1x1x256x168.ShapeCasts S256x168)
    (p : Fin 200) (q : Fin 168) :
    addf acc (matmul dot_S200x256_S256x168_S200x168_1_0_0_1_n_n none (truncf .bf16 (shapeCast S200x256 xs h1) h2)
        (shapeCast S256x168 ws h3) (constant S200x168 .f32 0x00000000#32)) (ix2 p q)
      = acc (ix2 p q) + ∑ c : Fin 256, xs (ix4 (0 : Fin 1) (0 : Fin 1) p c) * ws (ix4 (0 : Fin 1) (0 : Fin 1) c q) := by
  rw [addf_apply]
  refine congrArg (acc (ix2 p q) + ·) ?_
  refine (Cert.LibMatmulZero.matmul_zero_ix2 dot_S200x256_S256x168_S200x168_1_0_0_1_n_n rfl rfl rfl rfl dot_l0 dot_r1 none _ _ p q).trans ?_
  refine Finset.sum_congr rfl fun c _ => ?_
  rw [truncf_apply, castX_apply, castW_apply]

/-- The start of the running total at entry (p, q): the bias row's entry (0, q). -/
theorem start_apply {α : Type} (v : S1x168.Idx → α) (h : S1x168.ShapeCasts S1x168) (hb : S1x168.Broadcasts S200x168) (p : Fin 200) (q : Fin 168) :
    broadcastTo S200x168 (shapeCast S1x168 v h) hb (ix2 p q) = v (ix2 (0 : Fin 1) q) := by
  rw [shapeCast_self]
  exact broadcastTo_apply v hb (ix2 p q) (ix2 (0 : Fin 1) q) (fun a => by
    match a with
    | ⟨0, _⟩ => rfl
    | ⟨1, _⟩ => rfl)

/-- Position (0, 0, p, c) of feature slab (i, j) is the buffer's position (i, j, p, c). -/
theorem idxX_apply (i j : Nat)
    (h : ∀ a, (![i, j, 0, 0] : Fin 4 → Nat) a + S1x1x200x256.size a ≤ S7x7x200x256.size a) (p : Fin 200) (c : Fin 256) :
    (Rect.unit (s := S7x7x200x256) ![i, j, 0, 0] S1x1x200x256.size h).idx (ix4 (0 : Fin 1) (0 : Fin 1) p c)
      = ix4 (⟨i, by have h0 : i + 1 ≤ 7 := h 0; omega⟩ : Fin 7) (⟨j, by have h1 : j + 1 ≤ 7 := h 1; omega⟩ : Fin 7) p c := by
  refine funext fun a => Fin.ext ?_
  match a with
  | ⟨0, _⟩ => show i + 1 * 0 = i; omega
  | ⟨1, _⟩ => show j + 1 * 0 = j; omega
  | ⟨2, _⟩ => show 0 + 1 * p.val = p.val; omega
  | ⟨3, _⟩ => show 0 + 1 * c.val = c.val; omega

/-- Position (0, 0, c, q) of weight slab (a, b) is the buffer's position (a, b, c, q). -/
theorem idxW_apply (a b : Nat)
    (h : ∀ d, (![a, b, 0, 0] : Fin 4 → Nat) d + S1x1x256x168.size d ≤ S7x7x256x168.size d) (c : Fin 256) (q : Fin 168) :
    (Rect.unit (s := S7x7x256x168) ![a, b, 0, 0] S1x1x256x168.size h).idx (ix4 (0 : Fin 1) (0 : Fin 1) c q)
      = ix4 (⟨a, by have h0 : a + 1 ≤ 7 := h 0; omega⟩ : Fin 7) (⟨b, by have h1 : b + 1 ≤ 7 := h 1; omega⟩ : Fin 7) c q := by
  refine funext fun d => Fin.ext ?_
  match d with
  | ⟨0, _⟩ => show a + 1 * 0 = a; omega
  | ⟨1, _⟩ => show b + 1 * 0 = b; omega
  | ⟨2, _⟩ => show 0 + 1 * c.val = c.val; omega
  | ⟨3, _⟩ => show 0 + 1 * q.val = q.val; omega

/-- One step of the body at entry (p, q), with the two slabs read off the buffers: feature slab (i, j) and weight slab
    (a, b) contribute  Σ_c x0(i, j, p, c) · x1(a, b, c, q). -/
theorem stepLd_apply (acc : FVec Ideal S200x168 .f32) (x0 : Vec Ideal S7x7x200x256 .f32) (x1 : Vec Ideal S7x7x256x168 .bf16)
    (i j a b : Nat)
    (hx : ∀ d, (![i, j, 0, 0] : Fin 4 → Nat) d + S1x1x200x256.size d ≤ S7x7x200x256.size d)
    (hw : ∀ d, (![a, b, 0, 0] : Fin 4 → Nat) d + S1x1x256x168.size d ≤ S7x7x256x168.size d)
    (h1 : S1x1x200x256.ShapeCasts S200x256) (h2 : FTy.bits .bf16 < FTy.bits .f32) (h3 : S1x1x256x168.ShapeCasts S256x168)
    (p : Fin 200) (q : Fin 168) :
    addf acc (matmul (φ₁ := .bf16) (φ₂ := .bf16) dot_S200x256_S256x168_S200x168_1_0_0_1_n_n none
        (truncf .bf16 (shapeCast S200x256 (View.ld x0 (Rect.unit (s := S7x7x200x256) ![i, j, 0, 0] S1x1x200x256.size hx) : FVec Ideal S1x1x200x256 .f32) h1) h2)
        (shapeCast S256x168 (View.ld x1 (Rect.unit (s := S7x7x256x168) ![a, b, 0, 0] S1x1x256x168.size hw) : FVec Ideal S1x1x256x168 .bf16) h3)
        (constant S200x168 .f32 0x00000000#32)) (ix2 p q)
      = acc (ix2 p q) + ∑ c : Fin 256,
          x0 (ix4 (⟨i, by have h0 : i + 1 ≤ 7 := hx 0; omega⟩ : Fin 7) (⟨j, by have h0 : j + 1 ≤ 7 := hx 1; omega⟩ : Fin 7) p c)
            * x1 (ix4 (⟨a, by have h0 : a + 1 ≤ 7 := hw 0; omega⟩ : Fin 7) (⟨b, by have h0 : b + 1 ≤ 7 := hw 1; omega⟩ : Fin 7) c q) := by
  refine (step_apply acc _ _ h1 h2 h3 p q).trans ?_
  refine congrArg (acc (ix2 p q) + ·) (Finset.sum_congr rfl fun c _ => ?_)
  show x0 ((Rect.unit (s := S7x7x200x256) ![i, j, 0, 0] S1x1x200x256.size hx).idx (ix4 (0 : Fin 1) (0 : Fin 1) p c))
      * x1 ((Rect.unit (s := S7x7x256x168) ![a, b, 0, 0] S1x1x256x168.size hw).idx (ix4 (0 : Fin 1) (0 : Fin 1) c q)) = _
  rw [idxX_apply, idxW_apply]

/-- The bias row is loaded whole. -/
theorem ldB_eq (x2 : Vec Ideal S1x168 .f32) : View.ld x2 rB = x2 :=
  View.ld_unit_zero (S := S1x168) (funext fun a => by fin_cases a <;> rfl) _ x2

set_option maxHeartbeats 1600000 in
/-- Entry (p, q) of the stored value: the running total over the 49 positions, in row-major order, of the 256-term
    products of feature slab (i, j) with weight slab (j, i), started at the bias. -/
theorem total_apply (x0 : Vec Ideal S7x7x200x256 .f32) (x1 : Vec Ideal S7x7x256x168 .bf16) (x2 : Vec Ideal S1x168 .f32)
    (p : Fin 200) (q : Fin 168) :
    total x0 x1 x2 (ix2 p q)
      = accum (fun i j => ∑ c : Fin 256, x0 (ix4 i j p c) * x1 (ix4 j i c q)) (x2 (ix2 (0 : Fin 1) q)) := by
  simp only [total, t13, t12, t11, t10, t9, t8, t7, t6, t5, t4, t3, t2, t1, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  simp only [stepLd_apply, start_apply, ldB_eq]
  simp only [accum, pairs, List.foldl]
  rfl

end Cert.KernelIdeal.Val

end
-- ==== Proof.ArrayValue.lean ====
/-
  From the blocks to the whole result array, at the ideal values.

  Grid point `t` (of 25) handles rows `200·t … 200·t + 199`: the feature window's block at `t` is those rows of the
  transposed feature array (every spatial position, every channel), the weights' and the bias row's blocks are the
  whole arrays at every point, and the result window's block at `t` is those rows of the [5000, 168] result.  So what
  point `t` writes back is block `t` of ONE function `O` of the region-entry arrays: entry (n, q) of `O` is the running
  total, over the 49 positions (i, j), of Σ_c xt(i, j, n, c) · w4(j, i, c, q), started at the bias b6(0, q).  The 25
  blocks cover the result array (row `n` lies in block `n / 200`), so the array ends at `O`.
-/
import proofs.«118944_g14216341750014_cont_week2b_1508_5_alg».proof.Proof.FrameRunI
import proofs.«118944_g14216341750014_cont_week2b_1508_5_alg».proof.Proof.PayloadValue

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Cert.Heads
open Idealize.ShloMosaic.Pipeline (Dat)

variable (m : (ℓ : Loc nD τ sig) → Buf (Elt Ideal) ℓ) (ρ : Dev nD → PrngReg)

/-- The result array as one function of the arrays the region finds. -/
def O (xt : FVec Ideal S7x7x5000x256 .f32) (w4 : FVec Ideal S7x7x256x168 .bf16) (b6 : FVec Ideal S1x168 .f32) :
    S5000x168.Idx → EReal := fun y =>
  accum (fun i j => ∑ c : Fin 256, xt (ix4 i j (y 0) c) * w4 (ix4 j i c (y 1))) (b6 (ix2 (0 : Fin 1) (y 1)))

theorem O_apply (xt : FVec Ideal S7x7x5000x256 .f32) (w4 : FVec Ideal S7x7x256x168 .bf16) (b6 : FVec Ideal S1x168 .f32)
    (n : Fin 5000) (q : Fin 168) :
    O xt w4 b6 (ix2 n q) = accum (fun i j => ∑ c : Fin 256, xt (ix4 i j n c) * w4 (ix4 j i c q)) (b6 (ix2 (0 : Fin 1) q)) := rfl

/-- The printed index maps over the grid: the feature and result windows move down the rows with the point, the
    weights and the bias row stay. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `200·t + p` of the array. -/
def rowOf (t : Fin cfg0.N) (p : Fin 200) : Fin 5000 :=
  ⟨t.val * 200 + p.val, by have h := t.isLt; have hN : cfg0.N = 25 := N_0; omega⟩

/-- The feature window's block at `t`, entry (i, j, p, k): the transposed features at (i, j, 200·t + p, k). -/
theorem iblk0_apply (c : Dev nD) (t : Fin cfg0.N) (i j : Fin 7) (p : Fin 200) (k : Fin 256) :
    iblk m c 0 t (ix4 i j p k) = V m c main_v0 (ix4 i j (rowOf t p) k) := by
  obtain ⟨e0, e1, e2, e3, -⟩ := idx_facts t
  show V m c main_v0 (((cfg0.win 0).blk t).view.emb (ix4 i j p k)) = _
  refine congrArg (V m c main_v0) (funext fun a => Fin.ext ?_)
  match a with
  | ⟨0, _⟩ => show win0_0.index t (0 : Fin 4) * 7 + 1 * i.val = i.val; omega
  | ⟨1, _⟩ => show win0_0.index t (1 : Fin 4) * 7 + 1 * j.val = j.val; omega
  | ⟨2, _⟩ => show win0_0.index t (2 : Fin 4) * 200 + 1 * p.val = t.val * 200 + p.val; omega
  | ⟨3, _⟩ => show win0_0.index t (3 : Fin 4) * 256 + 1 * k.val = k.val; omega

/-- The weights' block at any point is the whole array. -/
theorem iblk1_apply (c : Dev nD) (t : Fin cfg0.N) (a b : Fin 7) (k : Fin 256) (q : Fin 168) :
    iblk m c 1 t (ix4 a b k q) = V m c main_v4 (ix4 a b k q) := by
  obtain ⟨-, -, -, -, e0, e1, e2, e3, -⟩ := idx_facts t
  show V m c main_v4 (((cfg0.win 1).blk t).view.emb (ix4 a b k q)) = _
  refine congrArg (V m c main_v4) (funext fun d => Fin.ext ?_)
  match d with
  | ⟨0, _⟩ => show win0_1.index t (0 : Fin 4) * 7 + 1 * a.val = a.val; omega
  | ⟨1, _⟩ => show win0_1.index t (1 : Fin 4) * 7 + 1 * b.val = b.val; omega
  | ⟨2, _⟩ => show win0_1.index t (2 : Fin 4) * 256 + 1 * k.val = k.val; omega
  | ⟨3, _⟩ => show win0_1.index t (3 : Fin 4) * 168 + 1 * q.val = q.val; omega

/-- The bias row's block at any point is the whole row. -/
theorem iblk2_apply (c : Dev nD) (t : Fin cfg0.N) (u : Fin 1) (q : Fin 168) :
    iblk m c 2 t (ix2 u q) = V m c main_v6 (ix2 u q) := by
  obtain ⟨-, -, -, -, -, -, -, -, e0, e1, -⟩ := idx_facts t
  show V m c main_v6 (((cfg0.win 2).blk t).view.emb (ix2 u q)) = _
  refine congrArg (V m c main_v6) (funext fun d => Fin.ext ?_)
  match d with
  | ⟨0, _⟩ => show win0_2.index t (0 : Fin 2) * 1 + 1 * u.val = u.val; omega
  | ⟨1, _⟩ => show win0_2.index t (1 : Fin 2) * 168 + 1 * q.val = q.val; omega

/-- Entry (p, q) of the result window's block at `t` is the array's entry (200·t + p, q). -/
theorem emb3_apply (t : Fin cfg0.N) (p : Fin 200) (q : Fin 168) :
    ((cfg0.win 3).blk t).view.emb (ix2 p q) = ix2 (rowOf t p) q := by
  obtain ⟨-, -, -, -, -, -, -, -, -, -, e0, e1⟩ := idx_facts t
  refine funext fun d => Fin.ext ?_
  match d with
  | ⟨0, _⟩ => show win0_3.index t (0 : Fin 2) * 200 + 1 * p.val = t.val * 200 + p.val; omega
  | ⟨1, _⟩ => show win0_3.index t (1 : Fin 2) * 168 + 1 * q.val = q.val; omega

theorem hz : (![0, 0] : Fin 2 → Nat) = fun _ => 0 := funext fun a => by fin_cases a <;> rfl

/-- The per-point fact over plain arrays: if the three input blocks are rows `r p` of `xt`, all of `w4` and all of `b6`,
    the stored value at (p, q) is `O` at (r p, q). -/
theorem point_eq (x0 : Vec Ideal S7x7x200x256 .f32) (x1 : Vec Ideal S7x7x256x168 .bf16) (x2 : Vec Ideal S1x168 .f32)
    (xt : FVec Ideal S7x7x5000x256 .f32) (w4 : FVec Ideal S7x7x256x168 .bf16) (b6 : FVec Ideal S1x168 .f32) (r : Fin 200 → Fin 5000)
    (h0 : ∀ (i j : Fin 7) (p : Fin 200) (k : Fin 256), x0 (ix4 i j p k) = xt (ix4 i j (r p) k))
    (h1 : ∀ (a b : Fin 7) (k : Fin 256) (q : Fin 168), x1 (ix4 a b k q) = w4 (ix4 a b k q))
    (h2 : ∀ (u : Fin 1) (q : Fin 168), x2 (ix2 u q) = b6 (ix2 u q)) (p : Fin 200) (q : Fin 168) :
    total x0 x1 x2 (ix2 p q) = O xt w4 b6 (ix2 (r p) q) := by
  rw [total_apply, O_apply, h2]
  refine congrArg (fun t => accum t (b6 (ix2 (0 : Fin 1) q))) (funext fun i => funext fun j => Finset.sum_congr rfl fun k _ => ?_)
  rw [h0, h1]

/-- The stored value at point `t`, as a function on the [200, 168] block. -/
theorem block_eq (c : Dev nD) (t : Fin cfg0.N) :
    total (iblk m c 0 t) (iblk m c 1 t) (iblk m c 2 t)
      = fun y : S200x168.Idx => O (V m c main_v0) (V m c main_v4) (V m c main_v6) (ix2 (rowOf t (y 0)) (y 1)) := by
  funext y
  obtain ⟨p, q, rfl⟩ : ∃ (p : Fin 200) (q : Fin 168), y = ix2 p q := ⟨y 0, y 1, eq_ix2 y⟩
  exact point_eq _ _ _ _ _ _ (rowOf t) (iblk0_apply m c t) (iblk1_apply m c t) (iblk2_apply m c t) p q

/-- What point `t` writes back is block `t` of `O` of the region-entry arrays. -/
theorem flushed3_eq (c : Dev nD) (t : Fin cfg0.N) :
    (dats m 0 c).flushed 3 t = ((cfg0.win 3).blk t).view.read (Elt Ideal) (O (V m c main_v0) (V m c main_v4) (V m c main_v6)) := by
  show (cfg0.win 3).cut (grid0.coords t) ((dats m 0 c).after 3 t) = _
  rw [after0_3]
  unfold out0_3
  rw [View.canon_unit_zero hz, block_eq]
  obtain ⟨-, -, -, -, -, -, -, -, -, -, e0, e1⟩ := idx_facts t
  generalize O (V m c main_v0) (V m c main_v4) (V m c main_v6) = G
  funext y
  rw [View.read_apply]
  refine congrArg G (funext fun d => Fin.ext ?_)
  match d with
  | ⟨0, _⟩ => show t.val * 200 + (y 0).val = win0_3.index t (0 : Fin 2) * 200 + 1 * (y 0).val; omega
  | ⟨1, _⟩ => show (y 1).val = win0_3.index t (1 : Fin 2) * 168 + 1 * (y 1).val; omega

/-- An index of the array is in point `t`'s block iff each coordinate is in the block's range on its axis. -/
theorem mem_blk3 (t : Fin cfg0.N) (i : S5000x168.Idx) :
    i ∈ ((cfg0.win 3).blk t).view.set ↔ ∀ a : Fin 2, win0_3.index t a * S200x168.size a ≤ (i a).val ∧ (i a).val < win0_3.index t a * S200x168.size a + S200x168.size a := by
  show i ∈ ((View.whole main_v7).slice (win0_3.rect t)).set ↔ _
  rw [View.set_slice_whole, Rect.mem_set_unit]
  exact Iff.rfl

/-- Every index of the result array is in some point's block: row `n` in block `n / 200`. -/
theorem cover3 (i : S5000x168.Idx) : ∃ t : Fin cfg0.N, (cfg0.win 3).flush t = true ∧ i ∈ ((cfg0.win 3).blk t).view.set := by
  have hi0 : (i 0).val < 5000 := (i 0).isLt
  have hi1 : (i 1).val < 168 := (i 1).isLt
  have hN : cfg0.N = 25 := N_0
  refine ⟨⟨(i 0).val / 200, by rw [hN]; omega⟩, flush0_3 _, ?_⟩
  rw [mem_blk3]
  obtain ⟨-, -, -, -, -, -, -, -, -, -, e0, e1⟩ := idx_facts ⟨(i 0).val / 200, by rw [hN]; omega⟩
  intro a
  match a with
  | ⟨0, _⟩ =>
    show win0_3.index _ (0 : Fin 2) * 200 ≤ (i 0).val ∧ (i 0).val < win0_3.index _ (0 : Fin 2) * 200 + 200
    rw [e0]; show (i 0).val / 200 * 200 ≤ (i 0).val ∧ (i 0).val < (i 0).val / 200 * 200 + 200; omega
  | ⟨1, _⟩ =>
    show win0_3.index _ (1 : Fin 2) * 168 ≤ (i 1).val ∧ (i 1).val < win0_3.index _ (1 : Fin 2) * 168 + 168
    rw [e1]; omega

/-- The result array after the run is `O` of the arrays the region found. -/
theorem final3 (c : Dev nD) :
    (dats m 0 c).arrAt 3 cfg0.N = O (V m c main_v0) (V m c main_v4) (V m c main_v6) :=
  (dats m 0 c).arrAt_eq_of_cover 3 (O (V m c main_v0) (V m c main_v4) (V m c main_v6)) (fun t _ => flushed3_eq m c t) cover3

end Cert.KernelIdeal.Val

end
-- ==== Proof.HostReads.lean ====
/-
  Host operations read at an index.

  Around its fused evaluation the program only moves data: it permutes the axes of the feature maps, lays the five
  heads' weights (and biases) end to end along the output axis, reshapes and permutes the stacked weights, puts the
  stacked bias in a row, and at the end cuts the five heads back out of the stacked result.  Each lemma here says
  which entry of its operand such an operation reads at a given index, with the index written by its coordinates.
-/
import proofs.«118944_g14216341750014_cont_week2b_1508_5_alg».proof.Proof.Spec
import Idealize.ShloMosaic.Lib.ValueIdx
import Idealize.ShloMosaic.Lib.Pipeline.Value
import Idealize.ShloMosaic.Lib.ValueLayout
import Idealize.ShloMosaic.PureOps

noncomputable section

namespace Cert.Heads.Host

open Idealize.ShloMosaic Idealize.ShloMosaic.ValueIdx

variable {α : Type}

/-! ## The feature maps with the two spatial axes in front -/

/-- Permuting `[5000, 256, 7, 7]` by `[2, 3, 0, 1]`: entry `(i, j, n, c)` of the result is entry `(n, c, i, j)`
    of the operand. -/
theorem x_t (x : (⟨4, ![5000, 256, 7, 7]⟩ : Shape).Idx → α)
    (h : (⟨4, ![5000, 256, 7, 7]⟩ : Shape).Transposes [2, 3, 0, 1] ⟨4, ![7, 7, 5000, 256]⟩)
    (i j : Fin 7) (n : Fin 5000) (c : Fin 256) :
    transpose ⟨4, ![7, 7, 5000, 256]⟩ [2, 3, 0, 1] x h (ix4 i j n c) = x (ix4 n c i j) :=
  transpose_apply _ x h _ _ fun b => match b with
    | ⟨0, _⟩ => rfl | ⟨1, _⟩ => rfl | ⟨2, _⟩ => rfl | ⟨3, _⟩ => rfl

/-! ## The stacked bias as a row -/

/-- A vector of length 168 put as the one row of a `[1, 168]` array: entry `(0, o)` is entry `o`. -/
theorem b_row (v : (⟨1, ![168]⟩ : Shape).Idx → α)
    (hb : (⟨1, ![168]⟩ : Shape).BroadcastsInDim ⟨2, ![1, 168]⟩ (![1] : Fin 1 → Fin 2))
    (o : Fin 168) :
    broadcastInDim ⟨2, ![1, 168]⟩ ![1] hb v (ix2 (0 : Fin 1) o) = v (ix1 o) :=
  broadcastInDim_apply _ hb v _ _ fun a => match a with
    | ⟨0, _⟩ => rfl

/-! ## The heads cut out of the stacked result -/

/-- Columns `OFF … OFF + R - 1` of a `[5000, 168]` array: entry `(n, o)` of the cut is entry `(n, OFF + o)`. -/
theorem slice_gen {R : Nat} (OFF : Nat) (y : (⟨2, ![5000, 168]⟩ : Shape).Idx → α)
    (h : (⟨2, ![5000, 168]⟩ : Shape).Slices ![0, OFF] ⟨2, ![5000, R]⟩)
    (n : Fin 5000) (o : Fin R) (q : Fin 168) (hq : q.val = OFF + o.val) :
    extractStridedSlice ⟨2, ![5000, R]⟩ ![0, OFF] y h (ix2 n o) = y (ix2 n q) :=
  slice2_axis1_apply OFF y h n o q hq

theorem slice0 (y : (⟨2, ![5000, 168]⟩ : Shape).Idx → α)
    (h : (⟨2, ![5000, 168]⟩ : Shape).Slices ![0, 0] ⟨2, ![5000, 32]⟩) (n : Fin 5000) (o : Fin 32) :
    extractStridedSlice ⟨2, ![5000, 32]⟩ ![0, 0] y h (ix2 n o) = y (ix2 n ⟨0 + o.val, by omega⟩) :=
  slice_gen 0 y h n o _ rfl

theorem slice1 (y : (⟨2, ![5000, 168]⟩ : Shape).Idx → α)
    (h : (⟨2, ![5000, 168]⟩ : Shape).Slices ![0, 32] ⟨2, ![5000, 124]⟩) (n : Fin 5000) (o : Fin 124) :
    extractStridedSlice ⟨2, ![5000, 124]⟩ ![0, 32] y h (ix2 n o) = y (ix2 n ⟨32 + o.val, by omega⟩) :=
  slice_gen 32 y h n o _ rfl

theorem slice2 (y : (⟨2, ![5000, 168]⟩ : Shape).Idx → α)
    (h : (⟨2, ![5000, 168]⟩ : Shape).Slices ![0, 156] ⟨2, ![5000, 3]⟩) (n : Fin 5000) (o : Fin 3) :
    extractStridedSlice ⟨2, ![5000, 3]⟩ ![0, 156] y h (ix2 n o) = y (ix2 n ⟨156 + o.val, by omega⟩) :=
  slice_gen 156 y h n o _ rfl

theorem slice3 (y : (⟨2, ![5000, 168]⟩ : Shape).Idx → α)
    (h : (⟨2, ![5000, 168]⟩ : Shape).Slices ![0, 159] ⟨2, ![5000, 7]⟩) (n : Fin 5000) (o : Fin 7) :
    extractStridedSlice ⟨2, ![5000, 7]⟩ ![0, 159] y h (ix2 n o) = y (ix2 n ⟨159 + o.val, by omega⟩) :=
  slice_gen 159 y h n o _ rfl

theorem slice4 (y : (⟨2, ![5000, 168]⟩ : Shape).Idx → α)
    (h : (⟨2, ![5000, 168]⟩ : Shape).Slices ![0, 166] ⟨2, ![5000, 2]⟩) (n : Fin 5000) (o : Fin 2) :
    extractStridedSlice ⟨2, ![5000, 2]⟩ ![0, 166] y h (ix2 n o) = y (ix2 n ⟨166 + o.val, by omega⟩) :=
  slice_gen 166 y h n o _ rfl

/-! ## The five heads' weights laid end to end

Rows `0 … 31` of the stacked weights are the first head's, rows `32 … 155` the second's, `156 … 158` the third's,
`159 … 165` the fourth's and `166, 167` the fifth's; a row of the stack is the row of the head it falls in, at its
position less the rows before that head. -/

/-- Row `q = 0 + o` of the stacked weights is row `o` of head 0's. -/
theorem cat2_0_at (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 32) (kk : Fin 12544) (q : Fin 168) (hq : q.val = 0 + o.val) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) = W0 (ix2 o kk) :=
  concatenate_apply_piece (t := ⟨2, ![168, 12544]⟩) 0
    [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) 0 (by show 0 < 5; omega) ⟨2, ![32, 12544]⟩ W0 rfl rfl 0 rfl (ix2 o kk)
    (fun b => match b with
      | ⟨0, _⟩ => fun hb => absurd rfl hb
      | ⟨1, _⟩ => fun _ => rfl)
    hq.symm

theorem cat2_0 (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 32) (kk : Fin 12544) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 ⟨0 + o.val, by omega⟩ kk) = W0 (ix2 o kk) :=
  cat2_0_at W0 W1 W2 W3 W4 h o kk _ rfl

/-- Row `q = 32 + o` of the stacked weights is row `o` of head 1's. -/
theorem cat2_1_at (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 124) (kk : Fin 12544) (q : Fin 168) (hq : q.val = 32 + o.val) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) = W1 (ix2 o kk) :=
  concatenate_apply_piece (t := ⟨2, ![168, 12544]⟩) 0
    [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) 1 (by show 1 < 5; omega) ⟨2, ![124, 12544]⟩ W1 rfl rfl 32 rfl (ix2 o kk)
    (fun b => match b with
      | ⟨0, _⟩ => fun hb => absurd rfl hb
      | ⟨1, _⟩ => fun _ => rfl)
    hq.symm

theorem cat2_1 (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 124) (kk : Fin 12544) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 ⟨32 + o.val, by omega⟩ kk) = W1 (ix2 o kk) :=
  cat2_1_at W0 W1 W2 W3 W4 h o kk _ rfl

/-- Row `q = 156 + o` of the stacked weights is row `o` of head 2's. -/
theorem cat2_2_at (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 3) (kk : Fin 12544) (q : Fin 168) (hq : q.val = 156 + o.val) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) = W2 (ix2 o kk) :=
  concatenate_apply_piece (t := ⟨2, ![168, 12544]⟩) 0
    [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) 2 (by show 2 < 5; omega) ⟨2, ![3, 12544]⟩ W2 rfl rfl 156 rfl (ix2 o kk)
    (fun b => match b with
      | ⟨0, _⟩ => fun hb => absurd rfl hb
      | ⟨1, _⟩ => fun _ => rfl)
    hq.symm

theorem cat2_2 (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 3) (kk : Fin 12544) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 ⟨156 + o.val, by omega⟩ kk) = W2 (ix2 o kk) :=
  cat2_2_at W0 W1 W2 W3 W4 h o kk _ rfl

/-- Row `q = 159 + o` of the stacked weights is row `o` of head 3's. -/
theorem cat2_3_at (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 7) (kk : Fin 12544) (q : Fin 168) (hq : q.val = 159 + o.val) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) = W3 (ix2 o kk) :=
  concatenate_apply_piece (t := ⟨2, ![168, 12544]⟩) 0
    [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) 3 (by show 3 < 5; omega) ⟨2, ![7, 12544]⟩ W3 rfl rfl 159 rfl (ix2 o kk)
    (fun b => match b with
      | ⟨0, _⟩ => fun hb => absurd rfl hb
      | ⟨1, _⟩ => fun _ => rfl)
    hq.symm

theorem cat2_3 (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 7) (kk : Fin 12544) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 ⟨159 + o.val, by omega⟩ kk) = W3 (ix2 o kk) :=
  cat2_3_at W0 W1 W2 W3 W4 h o kk _ rfl

/-- Row `q = 166 + o` of the stacked weights is row `o` of head 4's. -/
theorem cat2_4_at (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 2) (kk : Fin 12544) (q : Fin 168) (hq : q.val = 166 + o.val) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) = W4 (ix2 o kk) :=
  concatenate_apply_piece (t := ⟨2, ![168, 12544]⟩) 0
    [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 q kk) 4 (by show 4 < 5; omega) ⟨2, ![2, 12544]⟩ W4 rfl rfl 166 rfl (ix2 o kk)
    (fun b => match b with
      | ⟨0, _⟩ => fun hb => absurd rfl hb
      | ⟨1, _⟩ => fun _ => rfl)
    hq.symm

theorem cat2_4 (W0 : (⟨2, ![32, 12544]⟩ : Shape).Idx → α) (W1 : (⟨2, ![124, 12544]⟩ : Shape).Idx → α)
    (W2 : (⟨2, ![3, 12544]⟩ : Shape).Idx → α) (W3 : (⟨2, ![7, 12544]⟩ : Shape).Idx → α)
    (W4 : (⟨2, ![2, 12544]⟩ : Shape).Idx → α)
    (h : Shape.Concatenates [(⟨2, ![32, 12544]⟩ : Shape), ⟨2, ![124, 12544]⟩, ⟨2, ![3, 12544]⟩, ⟨2, ![7, 12544]⟩, ⟨2, ![2, 12544]⟩]
      ⟨2, ![168, 12544]⟩ 0)
    (o : Fin 2) (kk : Fin 12544) :
    concatenate ⟨2, ![168, 12544]⟩ 0 [⟨⟨2, ![32, 12544]⟩, W0⟩, ⟨⟨2, ![124, 12544]⟩, W1⟩, ⟨⟨2, ![3, 12544]⟩, W2⟩,
        ⟨⟨2, ![7, 12544]⟩, W3⟩, ⟨⟨2, ![2, 12544]⟩, W4⟩] h (ix2 ⟨166 + o.val, by omega⟩ kk) = W4 (ix2 o kk) :=
  cat2_4_at W0 W1 W2 W3 W4 h o kk _ rfl

/-! ## The five heads' biases laid end to end -/

/-- Entry `q = 0 + o` of the stacked bias is entry `o` of head 0's. -/
theorem cat1_0_at (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 32) (q : Fin 168) (hq : q.val = 0 + o.val) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 q) = b0 (ix1 o) :=
  concatenate_apply_piece (t := ⟨1, ![168]⟩) 0
    [⟨⟨1, ![32]⟩, b0⟩, ⟨⟨1, ![124]⟩, b1⟩, ⟨⟨1, ![3]⟩, b2⟩, ⟨⟨1, ![7]⟩, b3⟩, ⟨⟨1, ![2]⟩, b4⟩] h (ix1 q) 0 (by show 0 < 5; omega) ⟨1, ![32]⟩ b0 rfl rfl 0 rfl (ix1 o)
    (fun b => match b with
      | ⟨0, _⟩ => fun hb => absurd rfl hb)
    hq.symm

theorem cat1_0 (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 32) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 ⟨0 + o.val, by omega⟩) = b0 (ix1 o) :=
  cat1_0_at b0 b1 b2 b3 b4 h o _ rfl

/-- Entry `q = 32 + o` of the stacked bias is entry `o` of head 1's. -/
theorem cat1_1_at (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 124) (q : Fin 168) (hq : q.val = 32 + o.val) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 q) = b1 (ix1 o) :=
  concatenate_apply_piece (t := ⟨1, ![168]⟩) 0
    [⟨⟨1, ![32]⟩, b0⟩, ⟨⟨1, ![124]⟩, b1⟩, ⟨⟨1, ![3]⟩, b2⟩, ⟨⟨1, ![7]⟩, b3⟩, ⟨⟨1, ![2]⟩, b4⟩] h (ix1 q) 1 (by show 1 < 5; omega) ⟨1, ![124]⟩ b1 rfl rfl 32 rfl (ix1 o)
    (fun b => match b with
      | ⟨0, _⟩ => fun hb => absurd rfl hb)
    hq.symm

theorem cat1_1 (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 124) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 ⟨32 + o.val, by omega⟩) = b1 (ix1 o) :=
  cat1_1_at b0 b1 b2 b3 b4 h o _ rfl

/-- Entry `q = 156 + o` of the stacked bias is entry `o` of head 2's. -/
theorem cat1_2_at (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 3) (q : Fin 168) (hq : q.val = 156 + o.val) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 q) = b2 (ix1 o) :=
  concatenate_apply_piece (t := ⟨1, ![168]⟩) 0
    [⟨⟨1, ![32]⟩, b0⟩, ⟨⟨1, ![124]⟩, b1⟩, ⟨⟨1, ![3]⟩, b2⟩, ⟨⟨1, ![7]⟩, b3⟩, ⟨⟨1, ![2]⟩, b4⟩] h (ix1 q) 2 (by show 2 < 5; omega) ⟨1, ![3]⟩ b2 rfl rfl 156 rfl (ix1 o)
    (fun b => match b with
      | ⟨0, _⟩ => fun hb => absurd rfl hb)
    hq.symm

theorem cat1_2 (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 3) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 ⟨156 + o.val, by omega⟩) = b2 (ix1 o) :=
  cat1_2_at b0 b1 b2 b3 b4 h o _ rfl

/-- Entry `q = 159 + o` of the stacked bias is entry `o` of head 3's. -/
theorem cat1_3_at (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 7) (q : Fin 168) (hq : q.val = 159 + o.val) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 q) = b3 (ix1 o) :=
  concatenate_apply_piece (t := ⟨1, ![168]⟩) 0
    [⟨⟨1, ![32]⟩, b0⟩, ⟨⟨1, ![124]⟩, b1⟩, ⟨⟨1, ![3]⟩, b2⟩, ⟨⟨1, ![7]⟩, b3⟩, ⟨⟨1, ![2]⟩, b4⟩] h (ix1 q) 3 (by show 3 < 5; omega) ⟨1, ![7]⟩ b3 rfl rfl 159 rfl (ix1 o)
    (fun b => match b with
      | ⟨0, _⟩ => fun hb => absurd rfl hb)
    hq.symm

theorem cat1_3 (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 7) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 ⟨159 + o.val, by omega⟩) = b3 (ix1 o) :=
  cat1_3_at b0 b1 b2 b3 b4 h o _ rfl

/-- Entry `q = 166 + o` of the stacked bias is entry `o` of head 4's. -/
theorem cat1_4_at (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 2) (q : Fin 168) (hq : q.val = 166 + o.val) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 q) = b4 (ix1 o) :=
  concatenate_apply_piece (t := ⟨1, ![168]⟩) 0
    [⟨⟨1, ![32]⟩, b0⟩, ⟨⟨1, ![124]⟩, b1⟩, ⟨⟨1, ![3]⟩, b2⟩, ⟨⟨1, ![7]⟩, b3⟩, ⟨⟨1, ![2]⟩, b4⟩] h (ix1 q) 4 (by show 4 < 5; omega) ⟨1, ![2]⟩ b4 rfl rfl 166 rfl (ix1 o)
    (fun b => match b with
      | ⟨0, _⟩ => fun hb => absurd rfl hb)
    hq.symm

theorem cat1_4 (b0 : (⟨1, ![32]⟩ : Shape).Idx → α) (b1 : (⟨1, ![124]⟩ : Shape).Idx → α)
    (b2 : (⟨1, ![3]⟩ : Shape).Idx → α) (b3 : (⟨1, ![7]⟩ : Shape).Idx → α) (b4 : (⟨1, ![2]⟩ : Shape).Idx → α)
    (h : Shape.Concatenates [(⟨1, ![32]⟩ : Shape), ⟨1, ![124]⟩, ⟨1, ![3]⟩, ⟨1, ![7]⟩, ⟨1, ![2]⟩] ⟨1, ![168]⟩ 0)
    (o : Fin 2) :
    concatenate ⟨1, ![168]⟩ 0 [⟨⟨1, ![32]⟩, b0⟩, ⟨⟨1, ![124]⟩, b1⟩, ⟨⟨1, ![3]⟩, b2⟩, ⟨⟨1, ![7]⟩, b3⟩, ⟨⟨1, ![2]⟩, b4⟩] h (ix1 ⟨166 + o.val, by omega⟩) = b4 (ix1 o) :=
  cat1_4_at b0 b1 b2 b3 b4 h o _ rfl

/-! ## The stacked weights, reshaped and with their axes reversed -/

/-- The stacked weights `[168, 12544]`, read as `[168, 256, 7, 7]` in row-major order and then with the four axes
    reversed: entry `(a, b, c, o)` of the result is entry `(o, c, b, a)` of the reshaped array, which sits at
    position `c · 49 + b · 7 + a` of row `o`.  The change of format in between is the identity on extended reals. -/
theorem w_t (Wc : FVec Ideal ⟨2, ![168, 12544]⟩ .f32) (hb : FTy.bits .bf16 < FTy.bits .f32)
    (hs : (⟨2, ![168, 12544]⟩ : Shape).ShapeCasts ⟨4, ![168, 256, 7, 7]⟩)
    (ht : (⟨4, ![168, 256, 7, 7]⟩ : Shape).Transposes [3, 2, 1, 0] ⟨4, ![7, 7, 256, 168]⟩)
    (a b : Fin 7) (c : Fin 256) (o : Fin 168) :
    transpose ⟨4, ![7, 7, 256, 168]⟩ [3, 2, 1, 0]
        (shapeCast ⟨4, ![168, 256, 7, 7]⟩ (truncf .bf16 Wc hb) hs) ht (ix4 a b c o)
      = Wc (ix2 o (Cert.Heads.flat c b a)) := by
  refine (transpose_apply _ _ ht (ix4 a b c o) (ix4 o c b a) fun d => match d with
    | ⟨0, _⟩ => rfl | ⟨1, _⟩ => rfl | ⟨2, _⟩ => rfl | ⟨3, _⟩ => rfl).trans ?_
  refine (shapeCast_apply _ hs (ix4 o c b a) (ix2 o (Cert.Heads.flat c b a)) ?_).trans ?_
  · rw [Shape.rowMajor_val_two, Shape.rowMajor_val_four]
    show o.val * 12544 + (c.val * 49 + b.val * 7 + a.val) = ((o.val * 256 + c.val) * 7 + b.val) * 7 + a.val
    omega
  · rfl

/-- The same with the reshaped array given as any array `V` that agrees entrywise with the row-major reading of the
    (format-changed) stacked weights: the form to use when the reshape is spelled through a transport along an
    equation between element types that is `rfl`. -/
theorem w_t_of (Wc : FVec Ideal ⟨2, ![168, 12544]⟩ .f32) (hb : FTy.bits .bf16 < FTy.bits .f32)
    (hs : (⟨2, ![168, 12544]⟩ : Shape).ShapeCasts ⟨4, ![168, 256, 7, 7]⟩)
    (ht : (⟨4, ![168, 256, 7, 7]⟩ : Shape).Transposes [3, 2, 1, 0] ⟨4, ![7, 7, 256, 168]⟩)
    (V : FVec Ideal ⟨4, ![168, 256, 7, 7]⟩ .bf16)
    (hV : ∀ i, V i = shapeCast ⟨4, ![168, 256, 7, 7]⟩ (truncf .bf16 Wc hb) hs i)
    (a b : Fin 7) (c : Fin 256) (o : Fin 168) :
    transpose ⟨4, ![7, 7, 256, 168]⟩ [3, 2, 1, 0] V ht (ix4 a b c o) = Wc (ix2 o (Cert.Heads.flat c b a)) := by
  rw [show V = shapeCast ⟨4, ![168, 256, 7, 7]⟩ (truncf .bf16 Wc hb) hs from funext hV]
  exact w_t Wc hb hs ht a b c o

/-- The reshape spelled as a transport of each entry along an equation of the element type with itself. -/
theorem w_t_cast (Wc : FVec Ideal ⟨2, ![168, 12544]⟩ .f32) (hb : FTy.bits .bf16 < FTy.bits .f32)
    (he : EltTy.bf16 = EltTy.bf16)
    (hs : (⟨2, ![168, 12544]⟩ : Shape).ShapeCasts ⟨4, ![168, 256, 7, 7]⟩)
    (ht : (⟨4, ![168, 256, 7, 7]⟩ : Shape).Transposes [3, 2, 1, 0] ⟨4, ![7, 7, 256, 168]⟩)
    (a b : Fin 7) (c : Fin 256) (o : Fin 168) :
    transpose ⟨4, ![7, 7, 256, 168]⟩ [3, 2, 1, 0]
        ((fun i => he ▸ shapeCast ⟨4, ![168, 256, 7, 7]⟩ (truncf .bf16 Wc hb) hs i) :
          (⟨4, ![168, 256, 7, 7]⟩ : Shape).Idx → Elt Ideal EltTy.bf16) ht (ix4 a b c o)
      = Wc (ix2 o (Cert.Heads.flat c b a)) :=
  w_t Wc hb hs ht a b c o

end Cert.Heads.Host

end
-- ==== Proof.Accum.lean ====
/-
  The running total of the fused evaluation ends at the head.

  `accum t b` is a left fold of additions over the 49 spatial positions in row-major order.  A left fold of
  additions is the start value plus the sum of the list of summands; the list of the 49 positions enumerates
  `Fin 7 × Fin 7`, so that sum is `∑ i, ∑ j, t i j`.  With `t i j = ∑ c, f (flat c i j)` the triple sum over
  `(i, j, c)` is the sum over all 12544 flattened positions, because `(i, j, c) ↦ flat c i j` is a bijection
  with inverse `k ↦ (row k, col k, chan k)`.  All of this is regrouping in a commutative additive monoid,
  which the extended reals are.
-/
import proofs.«118944_g14216341750014_cont_week2b_1508_5_alg».proof.Proof.Spec

noncomputable section

namespace Cert.Heads

open Idealize.ShloMosaic Idealize.ShloMosaic.ValueIdx

/-! ### The flattening is a bijection -/

theorem chan_flat (c : Fin 256) (i j : Fin 7) : chan (flat c i j) = c := by
  apply Fin.ext
  simp only [chan, flat]
  omega

theorem row_flat (c : Fin 256) (i j : Fin 7) : row (flat c i j) = i := by
  apply Fin.ext
  simp only [row, flat]
  omega

theorem col_flat (c : Fin 256) (i j : Fin 7) : col (flat c i j) = j := by
  apply Fin.ext
  simp only [col, flat]
  omega

theorem flat_chan_row_col (k : Fin 12544) : flat (chan k) (row k) (col k) = k := by
  apply Fin.ext
  simp only [flat, chan, row, col]
  omega

/-- The flattened feature vector at `flat c i j` is the entry of channel `c` at position `(i, j)`. -/
theorem feat_flat (x : FVec Ideal SX .f32) (n : Fin 5000) (c : Fin 256) (i j : Fin 7) :
    feat x n (flat c i j) = x (ix4 n c i j) := by
  unfold feat
  rw [chan_flat, row_flat, col_flat]

/-- Positions `(i, j, c)` against flattened positions. -/
def flatEquiv : (Fin 7 × Fin 7 × Fin 256) ≃ Fin 12544 where
  toFun p := flat p.2.2 p.1 p.2.1
  invFun k := (row k, col k, chan k)
  left_inv p := by
    obtain ⟨i, j, c⟩ := p
    simp only [row_flat, col_flat, chan_flat]
  right_inv k := flat_chan_row_col k

/-- The triple sum over rows, columns and channels is the sum over all flattened positions. -/
theorem sum_flat (f : Fin 12544 → EReal) :
    ∑ i : Fin 7, ∑ j : Fin 7, ∑ c : Fin 256, f (flat c i j) = ∑ k : Fin 12544, f k := by
  rw [← flatEquiv.sum_comp f]
  simp only [Fintype.sum_prod_type]
  rfl

/-! ### A left fold of additions -/

/-- A left fold of additions is the start value plus the sum of the summands. -/
theorem foldl_add_eq {α : Type} (l : List α) (g : α → EReal) (b : EReal) :
    l.foldl (fun a p => a + g p) b = b + (l.map g).sum := by
  induction l generalizing b with
  | nil => simp
  | cons p l ih => simp only [List.foldl_cons, ih, List.map_cons, List.sum_cons, add_assoc]

/-- The 49 positions in row-major order enumerate `Fin 7 × Fin 7`. -/
theorem sum_pairs (g : Fin 7 × Fin 7 → EReal) :
    (pairs.map g).sum = ∑ i : Fin 7, ∑ j : Fin 7, g (i, j) := by
  simp only [pairs, List.map_cons, List.map_nil, List.sum_cons, List.sum_nil, Fin.sum_univ_seven,
    add_zero, add_assoc]

/-- The running total over the positions is the double sum plus the start value. -/
theorem accum_eq (t : Fin 7 → Fin 7 → EReal) (b : EReal) :
    accum t b = (∑ i : Fin 7, ∑ j : Fin 7, t i j) + b := by
  unfold accum
  rw [foldl_add_eq pairs (fun ij => t ij.1 ij.2) b, sum_pairs, add_comm]

theorem accum_flat (f : Fin 12544 → EReal) (b : EReal) :
    accum (fun i j => ∑ c : Fin 256, f (flat c i j)) b = (∑ k : Fin 12544, f k) + b := by
  rw [accum_eq, sum_flat]

/-- The fused running total of one head is the head. -/
theorem fused_eq_head {R : Nat} (x : FVec Ideal SX .f32) (W : FVec Ideal ⟨2, ![R, 12544]⟩ .f32)
    (b : FVec Ideal ⟨1, ![R]⟩ .f32) (n : Fin 5000) (o : Fin R) :
    accum (fun i j => ∑ c : Fin 256, x (ix4 n c i j) * W (ix2 o (flat c i j))) (b (ix1 o))
      = head x W b (ix2 n o) := by
  rw [head_apply, ← accum_flat (fun k => feat x n k * W (ix2 o k))]
  simp only [feat_flat]

end Cert.Heads

end
-- ==== Proof.HostValue.lean ====
/-
  The five results as heads of the launched arguments, at the ideal values.

  What the region finds: the transposed features, xt(i, j, n, k) = x(n, k, i, j); the stacked weights reshaped and
  transposed, w4(a, b, k, q) = Wcat(q, k·49 + b·7 + a) (rounding is the identity at the ideal values); the stacked biases
  as a row, b6(0, q) = bcat(q).  Rows OFF … OFF + R − 1 of the stacked weights and biases are head K's weights and
  biases.  What the five slices leave: result K at (n, o) is the fused result at (n, OFF + o).  With the fused result as
  the running total `O` and the regrouping law, result K is head K.
-/
import proofs.«118944_g14216341750014_cont_week2b_1508_5_alg».proof.Proof.ArrayValue
import proofs.«118944_g14216341750014_cont_week2b_1508_5_alg».proof.Proof.HostReads
import proofs.«118944_g14216341750014_cont_week2b_1508_5_alg».proof.Proof.Accum

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Cert.Heads
open Idealize.ShloMosaic.Pipeline (Dat)
open Idealize.ShloMosaic.StableHlo

/-- If the arrays the region finds are the transposed features, rows of re-laid weights and of a bias row, the fused
    result at (n, OFF + o) is the head at (n, o): the regrouping law. -/
theorem head_of_reads {R : Nat} (xt : FVec Ideal S7x7x5000x256 .f32) (w4 : FVec Ideal S7x7x256x168 .bf16) (b6 : FVec Ideal S1x168 .f32)
    (x : FVec Ideal SX .f32) (W : FVec Ideal ⟨2, ![R, 12544]⟩ .f32) (b : FVec Ideal ⟨1, ![R]⟩ .f32) (col : Fin R → Fin 168)
    (hx : ∀ (i j : Fin 7) (n : Fin 5000) (k : Fin 256), xt (ix4 i j n k) = x (ix4 n k i j))
    (hw : ∀ (a b' : Fin 7) (k : Fin 256) (o : Fin R), w4 (ix4 a b' k (col o)) = W (ix2 o (flat k b' a)))
    (hb : ∀ o : Fin R, b6 (ix2 (0 : Fin 1) (col o)) = b (ix1 o)) (n : Fin 5000) (o : Fin R) :
    O xt w4 b6 (ix2 n (col o)) = head x W b (ix2 n o) := by
  rw [O_apply, ← fused_eq_head, hb]
  refine congrArg (fun t => accum t (b (ix1 o))) (funext fun i => funext fun j => Finset.sum_congr rfl fun k _ => ?_)
  rw [hx, hw]

variable (m : (ℓ : Loc nD τ sig) → Buf (Elt Ideal) ℓ) (ρ : Dev nD → PrngReg)

/-- The stacked weights and the stacked biases of the launched arguments. -/
def Wcat (c : Dev nD) : FVec Ideal S168x12544 .f32 :=
  concatenate S168x12544 0 [⟨S32x12544, m ((c : Thread nD τ).loc main_arg1)⟩, ⟨S124x12544, m ((c : Thread nD τ).loc main_arg3)⟩, ⟨S3x12544, m ((c : Thread nD τ).loc main_arg5)⟩,
    ⟨S7x12544, m ((c : Thread nD τ).loc main_arg7)⟩, ⟨S2x12544, m ((c : Thread nD τ).loc main_arg9)⟩] concatenates_S32x12544_S124x12544_S3x12544_S7x12544_S2x12544_S168x12544_d0
def bcat (c : Dev nD) : FVec Ideal S168 .f32 :=
  concatenate S168 0 [⟨S32, m ((c : Thread nD τ).loc main_arg2)⟩, ⟨S124, m ((c : Thread nD τ).loc main_arg4)⟩, ⟨S3, m ((c : Thread nD τ).loc main_arg6)⟩,
    ⟨S7, m ((c : Thread nD τ).loc main_arg8)⟩, ⟨S2, m ((c : Thread nD τ).loc main_arg10)⟩] concatenates_S32_S124_S3_S7_S2_S168_d0

/-- The region finds the features transposed to [7, 7, 5000, 256]. -/
theorem V_v0_apply (c : Dev nD) (i j : Fin 7) (n : Fin 5000) (k : Fin 256) :
    V m c main_v0 (ix4 i j n k) = m ((c : Thread nD τ).loc main_arg0) (ix4 n k i j) := by
  show StableHlo.after hostOps0 (fun b => m (c, b)) (Proc.devRef .tc main_v0) (ix4 i j n k) = _
  after_results
  exact Cert.Heads.Host.x_t _ _ i j n k

/-- The region finds the stacked weights re-laid to [7, 7, 256, 168]. -/
theorem V_v4_apply (c : Dev nD) (a b : Fin 7) (k : Fin 256) (q : Fin 168) :
    V m c main_v4 (ix4 a b k q) = Wcat m c (ix2 q (flat k b a)) := by
  show StableHlo.after hostOps0 (fun b => m (c, b)) (Proc.devRef .tc main_v4) (ix4 a b k q) = _
  after_results
  exact Cert.Heads.Host.w_t _ _ _ _ a b k q

/-- The region finds the stacked biases as a row. -/
theorem V_v6_apply (c : Dev nD) (q : Fin 168) :
    V m c main_v6 (ix2 (0 : Fin 1) q) = bcat m c (ix1 q) := by
  show StableHlo.after hostOps0 (fun b => m (c, b)) (Proc.devRef .tc main_v6) (ix2 (0 : Fin 1) q) = _
  after_results
  exact Cert.Heads.Host.b_row _ _ q

/-- After the region the result array holds `O` of what the region found. -/
theorem arr7_eq (c : Dev nD) :
    Pipeline.withArrays (cfgs 0).spec c (V0 m c) (fun w => (dats m 0 c).arrAt w (cfgs 0).N) (Proc.devRef .tc main_v7)
      = O (V m c main_v0) (V m c main_v4) (V m c main_v6) :=
  (Pipeline.withArrays_arr spec0 launch0.win.arr_inj c _ _ 3).trans (final3 m c)

/-- Result 0 at (n, o) is the fused result at (n, 0 + o). -/
theorem tail0_apply (c : Dev nD) (n : Fin 5000) (o : Fin 32) :
    Pipeline.afterTail₀ cfgs (dats m) 0 (V0 m) [hostOps1] c main_v8 (ix2 n o)
      = O (V m c main_v0) (V m c main_v4) (V m c main_v6) (ix2 n (⟨0 + o.val, by omega⟩ : Fin 168)) := by
  unfold Pipeline.afterTail₀
  show StableHlo.after hostOps1 _ (Proc.devRef .tc main_v8) (ix2 n o) = _
  after_results
  rw [arr7_eq]
  exact Cert.Heads.Host.slice0 _ _ n o

/-- Result 1 at (n, o) is the fused result at (n, 32 + o). -/
theorem tail1_apply (c : Dev nD) (n : Fin 5000) (o : Fin 124) :
    Pipeline.afterTail₀ cfgs (dats m) 0 (V0 m) [hostOps1] c main_v9 (ix2 n o)
      = O (V m c main_v0) (V m c main_v4) (V m c main_v6) (ix2 n (⟨32 + o.val, by omega⟩ : Fin 168)) := by
  unfold Pipeline.afterTail₀
  show StableHlo.after hostOps1 _ (Proc.devRef .tc main_v9) (ix2 n o) = _
  after_results
  rw [arr7_eq]
  exact Cert.Heads.Host.slice1 _ _ n o

/-- Result 2 at (n, o) is the fused result at (n, 156 + o). -/
theorem tail2_apply (c : Dev nD) (n : Fin 5000) (o : Fin 3) :
    Pipeline.afterTail₀ cfgs (dats m) 0 (V0 m) [hostOps1] c main_v10 (ix2 n o)
      = O (V m c main_v0) (V m c main_v4) (V m c main_v6) (ix2 n (⟨156 + o.val, by omega⟩ : Fin 168)) := by
  unfold Pipeline.afterTail₀
  show StableHlo.after hostOps1 _ (Proc.devRef .tc main_v10) (ix2 n o) = _
  after_results
  rw [arr7_eq]
  exact Cert.Heads.Host.slice2 _ _ n o

/-- Result 3 at (n, o) is the fused result at (n, 159 + o). -/
theorem tail3_apply (c : Dev nD) (n : Fin 5000) (o : Fin 7) :
    Pipeline.afterTail₀ cfgs (dats m) 0 (V0 m) [hostOps1] c main_v11 (ix2 n o)
      = O (V m c main_v0) (V m c main_v4) (V m c main_v6) (ix2 n (⟨159 + o.val, by omega⟩ : Fin 168)) := by
  unfold Pipeline.afterTail₀
  show StableHlo.after hostOps1 _ (Proc.devRef .tc main_v11) (ix2 n o) = _
  after_results
  rw [arr7_eq]
  exact Cert.Heads.Host.slice3 _ _ n o

/-- Result 4 at (n, o) is the fused result at (n, 166 + o). -/
theorem tail4_apply (c : Dev nD) (n : Fin 5000) (o : Fin 2) :
    Pipeline.afterTail₀ cfgs (dats m) 0 (V0 m) [hostOps1] c main_v12 (ix2 n o)
      = O (V m c main_v0) (V m c main_v4) (V m c main_v6) (ix2 n (⟨166 + o.val, by omega⟩ : Fin 168)) := by
  unfold Pipeline.afterTail₀
  show StableHlo.after hostOps1 _ (Proc.devRef .tc main_v12) (ix2 n o) = _
  after_results
  rw [arr7_eq]
  exact Cert.Heads.Host.slice4 _ _ n o

/-- Result 0 (columns 0 … 31 of the fused result) is head 0 of the launched arguments. -/
theorem result0 (c : Dev nD) :
    Pipeline.afterTail₀ cfgs (dats m) 0 (V0 m) [hostOps1] c main_v8 = head (m ((c : Thread nD τ).loc main_arg0)) (m ((c : Thread nD τ).loc main_arg1)) (m ((c : Thread nD τ).loc main_arg2)) := by
  funext y
  obtain ⟨n, o, rfl⟩ : ∃ (n : Fin 5000) (o : Fin 32), y = ix2 n o := ⟨y 0, y 1, eq_ix2 y⟩
  refine (tail0_apply m c n o).trans ?_
  exact head_of_reads _ _ _ _ _ _ (fun o : Fin 32 => (⟨0 + o.val, by omega⟩ : Fin 168))
    (fun i j n k => V_v0_apply m c i j n k)
    (fun a b k o => (V_v4_apply m c a b k _).trans (Cert.Heads.Host.cat2_0 _ _ _ _ _ _ o _))
    (fun o => (V_v6_apply m c _).trans (Cert.Heads.Host.cat1_0 _ _ _ _ _ _ o)) n o

/-- Result 1 (columns 32 … 155 of the fused result) is head 1 of the launched arguments. -/
theorem result1 (c : Dev nD) :
    Pipeline.afterTail₀ cfgs (dats m) 0 (V0 m) [hostOps1] c main_v9 = head (m ((c : Thread nD τ).loc main_arg0)) (m ((c : Thread nD τ).loc main_arg3)) (m ((c : Thread nD τ).loc main_arg4)) := by
  funext y
  obtain ⟨n, o, rfl⟩ : ∃ (n : Fin 5000) (o : Fin 124), y = ix2 n o := ⟨y 0, y 1, eq_ix2 y⟩
  refine (tail1_apply m c n o).trans ?_
  exact head_of_reads _ _ _ _ _ _ (fun o : Fin 124 => (⟨32 + o.val, by omega⟩ : Fin 168))
    (fun i j n k => V_v0_apply m c i j n k)
    (fun a b k o => (V_v4_apply m c a b k _).trans (Cert.Heads.Host.cat2_1 _ _ _ _ _ _ o _))
    (fun o => (V_v6_apply m c _).trans (Cert.Heads.Host.cat1_1 _ _ _ _ _ _ o)) n o

/-- Result 2 (columns 156 … 158 of the fused result) is head 2 of the launched arguments. -/
theorem result2 (c : Dev nD) :
    Pipeline.afterTail₀ cfgs (dats m) 0 (V0 m) [hostOps1] c main_v10 = head (m ((c : Thread nD τ).loc main_arg0)) (m ((c : Thread nD τ).loc main_arg5)) (m ((c : Thread nD τ).loc main_arg6)) := by
  funext y
  obtain ⟨n, o, rfl⟩ : ∃ (n : Fin 5000) (o : Fin 3), y = ix2 n o := ⟨y 0, y 1, eq_ix2 y⟩
  refine (tail2_apply m c n o).trans ?_
  exact head_of_reads _ _ _ _ _ _ (fun o : Fin 3 => (⟨156 + o.val, by omega⟩ : Fin 168))
    (fun i j n k => V_v0_apply m c i j n k)
    (fun a b k o => (V_v4_apply m c a b k _).trans (Cert.Heads.Host.cat2_2 _ _ _ _ _ _ o _))
    (fun o => (V_v6_apply m c _).trans (Cert.Heads.Host.cat1_2 _ _ _ _ _ _ o)) n o

/-- Result 3 (columns 159 … 165 of the fused result) is head 3 of the launched arguments. -/
theorem result3 (c : Dev nD) :
    Pipeline.afterTail₀ cfgs (dats m) 0 (V0 m) [hostOps1] c main_v11 = head (m ((c : Thread nD τ).loc main_arg0)) (m ((c : Thread nD τ).loc main_arg7)) (m ((c : Thread nD τ).loc main_arg8)) := by
  funext y
  obtain ⟨n, o, rfl⟩ : ∃ (n : Fin 5000) (o : Fin 7), y = ix2 n o := ⟨y 0, y 1, eq_ix2 y⟩
  refine (tail3_apply m c n o).trans ?_
  exact head_of_reads _ _ _ _ _ _ (fun o : Fin 7 => (⟨159 + o.val, by omega⟩ : Fin 168))
    (fun i j n k => V_v0_apply m c i j n k)
    (fun a b k o => (V_v4_apply m c a b k _).trans (Cert.Heads.Host.cat2_3 _ _ _ _ _ _ o _))
    (fun o => (V_v6_apply m c _).trans (Cert.Heads.Host.cat1_3 _ _ _ _ _ _ o)) n o

/-- Result 4 (columns 166 … 167 of the fused result) is head 4 of the launched arguments. -/
theorem result4 (c : Dev nD) :
    Pipeline.afterTail₀ cfgs (dats m) 0 (V0 m) [hostOps1] c main_v12 = head (m ((c : Thread nD τ).loc main_arg0)) (m ((c : Thread nD τ).loc main_arg9)) (m ((c : Thread nD τ).loc main_arg10)) := by
  funext y
  obtain ⟨n, o, rfl⟩ : ∃ (n : Fin 5000) (o : Fin 2), y = ix2 n o := ⟨y 0, y 1, eq_ix2 y⟩
  refine (tail4_apply m c n o).trans ?_
  exact head_of_reads _ _ _ _ _ _ (fun o : Fin 2 => (⟨166 + o.val, by omega⟩ : Fin 168))
    (fun i j n k => V_v0_apply m c i j n k)
    (fun a b k o => (V_v4_apply m c a b k _).trans (Cert.Heads.Host.cat2_4 _ _ _ _ _ _ o _))
    (fun o => (V_v6_apply m c _).trans (Cert.Heads.Host.cat1_4 _ _ _ _ _ _ o)) n o

end Cert.KernelIdeal.Val

end
-- ==== Proof.KernelRun.lean ====
/-
  The idealized kernel program's run, read: every weakly fair execution terminates, the five results are the five
  heads of the launched arguments, and the arguments end as launched.
-/
import proofs.«118944_g14216341750014_cont_week2b_1508_5_alg».proof.Proof.HostValue

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Cert.Heads

variable (m : (ℓ : Loc nD τ sig) → Buf (Elt Ideal) ℓ) (ρ : Dev nD → PrngReg)

theorem kernel_run : θ_run defs (onTc (τ := τ) (main (F := Ideal))) ⟨m, fun _ => 0, ρ⟩ (fun r => ∀ c : Dev nD,
      r.2.mem ((c : Thread nD τ).loc main_v8) = head (m ((c : Thread nD τ).loc main_arg0)) (m ((c : Thread nD τ).loc main_arg1)) (m ((c : Thread nD τ).loc main_arg2))
      ∧ r.2.mem ((c : Thread nD τ).loc main_v9) = head (m ((c : Thread nD τ).loc main_arg0)) (m ((c : Thread nD τ).loc main_arg3)) (m ((c : Thread nD τ).loc main_arg4))
      ∧ r.2.mem ((c : Thread nD τ).loc main_v10) = head (m ((c : Thread nD τ).loc main_arg0)) (m ((c : Thread nD τ).loc main_arg5)) (m ((c : Thread nD τ).loc main_arg6))
      ∧ r.2.mem ((c : Thread nD τ).loc main_v11) = head (m ((c : Thread nD τ).loc main_arg0)) (m ((c : Thread nD τ).loc main_arg7)) (m ((c : Thread nD τ).loc main_arg8))
      ∧ r.2.mem ((c : Thread nD τ).loc main_v12) = head (m ((c : Thread nD τ).loc main_arg0)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨((h c).2 main_v8 (Pipeline.mem_restRefs_of main_v8 (by decide) (by decide))).trans (result0 m c),
      ((h c).2 main_v9 (Pipeline.mem_restRefs_of main_v9 (by decide) (by decide))).trans (result1 m c),
      ((h c).2 main_v10 (Pipeline.mem_restRefs_of main_v10 (by decide) (by decide))).trans (result2 m c),
      ((h c).2 main_v11 (Pipeline.mem_restRefs_of main_v11 (by decide) (by decide))).trans (result3 m c),
      ((h c).2 main_v12 (Pipeline.mem_restRefs_of main_v12 (by decide) (by decide))).trans (result4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.Val

end
-- ==== Proof.RefHeads.lean ====
/-
  The reference program's five results are the five heads of the shared specification.

  Each result is `dot_general (reshape x) (transpose W) + broadcast (broadcast b)`.  Read at an output index
  `(n, o)`: the contraction is a sum over the flattened position `k : Fin 12544`; the reshape
  `[5000, 256, 7, 7] → [5000, 12544]` reads row `n`, position `k` at the entry
  `(n, k / 49, k / 7 % 7, k % 7)`, which is `feat x n k`; the transpose reads `(k, o)` at `W (o, k)`; the two
  broadcasts read `(n, o)` at `b o`.  So the element is `∑ k, feat x n k * W (o, k) + b o`, the head.
-/
import proofs.«118944_g14216341750014_cont_week2b_1508_5_alg».proof.Proof.Spec
import proofs.«118944_g14216341750014_cont_week2b_1508_5_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Heads

/-- The reshape's source index at row `n`, flattened position `k`: channel `k / 49`, row `k / 7 % 7`,
    column `k % 7` of RoI `n` (since `12544 = 256 · 49` and `k < 12544`). -/
theorem idx_flat (n : Fin 5000) (k : Fin 12544) :
    idx_main_v0 (ix2 n k) = ix4 n (chan k) (row k) (col k) := by
  have hn : n.val < 5000 := n.isLt
  have hk : k.val < 12544 := k.isLt
  funext a
  apply Fin.ext
  match a with
  | ⟨0, _⟩ => show (n.val * 12544 + k.val) / 12544 = n.val; omega
  | ⟨1, _⟩ => show (n.val * 12544 + k.val) / 49 % 256 = k.val / 49; omega
  | ⟨2, _⟩ => show (n.val * 12544 + k.val) / 7 % 7 = k.val / 7 % 7; omega
  | ⟨3, _⟩ => show (n.val * 12544 + k.val) % 7 = k.val % 7; omega

/-- The reshaped feature map at `(n, k)` is the flattened feature `feat x n k`. -/
theorem flat_apply (x : FVec Ideal S5000x256x7x7 .f32) (n : Fin 5000) (k : Fin 12544) :
    val_main_v0 (F := Ideal) x (ix2 n k) = feat x n k := by
  rw [val_main_v0_apply, idx_flat]
  rfl

/-- Head with 32 outputs. -/
theorem head32_eq (x : FVec Ideal S5000x256x7x7 .f32) (W : FVec Ideal S32x12544 .f32) (b : FVec Ideal S32 .f32) :
    addf (Host.dotGeneral (F := Ideal) dot_S5000x12544_S12544x32_S5000x32_1_0_0_1_n_n none (shapeCast _ x shapeCasts_S5000x256x7x7_S5000x12544) (transpose S12544x32 [1, 0] W transposes_S32x12544_S12544x32_1_0)) (broadcastInDim S5000x32 ![0, 1] bcast_S1x32_S5000x32_0_1 (broadcastInDim S1x32 ![1] bcast_S32_S1x32_1 b))
      = Cert.Heads.head x W b := by
  refine (val_main_v5_eq (F := Ideal) x W b).trans ?_
  funext y
  obtain ⟨n, o, rfl⟩ : ∃ (n : Fin 5000) (o : Fin 32), y = ix2 n o := ⟨y 0, y 1, eq_ix2 y⟩
  rw [Cert.Heads.head_apply, val_main_v5_apply, val_main_v2_apply, val_main_v4_apply, val_main_v3_apply]
  have el : ∀ k : Fin 12544, lidx_main_v2 (ix2 n o) k = ix2 n k := fun k => funext fun a => Fin.ext (by
    match a with
    | ⟨0, _⟩ => rfl
    | ⟨1, _⟩ => rfl)
  have er : ∀ k : Fin 12544, idx_main_v1 (ridx_main_v2 (ix2 n o) k) = ix2 o k := fun k => funext fun a => Fin.ext (by
    match a with
    | ⟨0, _⟩ => rfl
    | ⟨1, _⟩ => rfl)
  have eb : idx_main_v3 (idx_main_v4 (ix2 n o)) = ix1 o := funext fun a => Fin.ext (by
    match a with
    | ⟨0, _⟩ => rfl)
  rw [eb]
  show (∑ k : Fin 12544, _) + _ = _
  congr 1
  refine Finset.sum_congr rfl fun k _ => ?_
  rw [val_main_v1_apply, el, er, flat_apply]

/-- Head with 124 outputs. -/
theorem head124_eq (x : FVec Ideal S5000x256x7x7 .f32) (W : FVec Ideal S124x12544 .f32) (b : FVec Ideal S124 .f32) :
    addf (Host.dotGeneral (F := Ideal) dot_S5000x12544_S12544x124_S5000x124_1_0_0_1_n_n none (shapeCast _ x shapeCasts_S5000x256x7x7_S5000x12544) (transpose S12544x124 [1, 0] W transposes_S124x12544_S12544x124_1_0)) (broadcastInDim S5000x124 ![0, 1] bcast_S1x124_S5000x124_0_1 (broadcastInDim S1x124 ![1] bcast_S124_S1x124_1 b))
      = Cert.Heads.head x W b := by
  refine (val_main_v10_eq (F := Ideal) x W b).trans ?_
  funext y
  obtain ⟨n, o, rfl⟩ : ∃ (n : Fin 5000) (o : Fin 124), y = ix2 n o := ⟨y 0, y 1, eq_ix2 y⟩
  rw [Cert.Heads.head_apply, val_main_v10_apply, val_main_v7_apply, val_main_v9_apply, val_main_v8_apply]
  have el : ∀ k : Fin 12544, lidx_main_v7 (ix2 n o) k = ix2 n k := fun k => funext fun a => Fin.ext (by
    match a with
    | ⟨0, _⟩ => rfl
    | ⟨1, _⟩ => rfl)
  have er : ∀ k : Fin 12544, idx_main_v6 (ridx_main_v7 (ix2 n o) k) = ix2 o k := fun k => funext fun a => Fin.ext (by
    match a with
    | ⟨0, _⟩ => rfl
    | ⟨1, _⟩ => rfl)
  have eb : idx_main_v8 (idx_main_v9 (ix2 n o)) = ix1 o := funext fun a => Fin.ext (by
    match a with
    | ⟨0, _⟩ => rfl)
  rw [eb]
  show (∑ k : Fin 12544, _) + _ = _
  congr 1
  refine Finset.sum_congr rfl fun k _ => ?_
  rw [val_main_v6_apply, el, er, flat_apply]

/-- Head with 3 outputs. -/
theorem head3_eq (x : FVec Ideal S5000x256x7x7 .f32) (W : FVec Ideal S3x12544 .f32) (b : FVec Ideal S3 .f32) :
    addf (Host.dotGeneral (F := Ideal) dot_S5000x12544_S12544x3_S5000x3_1_0_0_1_n_n none (shapeCast _ x shapeCasts_S5000x256x7x7_S5000x12544) (transpose S12544x3 [1, 0] W transposes_S3x12544_S12544x3_1_0)) (broadcastInDim S5000x3 ![0, 1] bcast_S1x3_S5000x3_0_1 (broadcastInDim S1x3 ![1] bcast_S3_S1x3_1 b))
      = Cert.Heads.head x W b := by
  refine (val_main_v15_eq (F := Ideal) x W b).trans ?_
  funext y
  obtain ⟨n, o, rfl⟩ : ∃ (n : Fin 5000) (o : Fin 3), y = ix2 n o := ⟨y 0, y 1, eq_ix2 y⟩
  rw [Cert.Heads.head_apply, val_main_v15_apply, val_main_v12_apply, val_main_v14_apply, val_main_v13_apply]
  have el : ∀ k : Fin 12544, lidx_main_v12 (ix2 n o) k = ix2 n k := fun k => funext fun a => Fin.ext (by
    match a with
    | ⟨0, _⟩ => rfl
    | ⟨1, _⟩ => rfl)
  have er : ∀ k : Fin 12544, idx_main_v11 (ridx_main_v12 (ix2 n o) k) = ix2 o k := fun k => funext fun a => Fin.ext (by
    match a with
    | ⟨0, _⟩ => rfl
    | ⟨1, _⟩ => rfl)
  have eb : idx_main_v13 (idx_main_v14 (ix2 n o)) = ix1 o := funext fun a => Fin.ext (by
    match a with
    | ⟨0, _⟩ => rfl)
  rw [eb]
  show (∑ k : Fin 12544, _) + _ = _
  congr 1
  refine Finset.sum_congr rfl fun k _ => ?_
  rw [val_main_v11_apply, el, er, flat_apply]

/-- Head with 7 outputs. -/
theorem head7_eq (x : FVec Ideal S5000x256x7x7 .f32) (W : FVec Ideal S7x12544 .f32) (b : FVec Ideal S7 .f32) :
    addf (Host.dotGeneral (F := Ideal) dot_S5000x12544_S12544x7_S5000x7_1_0_0_1_n_n none (shapeCast _ x shapeCasts_S5000x256x7x7_S5000x12544) (transpose S12544x7 [1, 0] W transposes_S7x12544_S12544x7_1_0)) (broadcastInDim S5000x7 ![0, 1] bcast_S1x7_S5000x7_0_1 (broadcastInDim S1x7 ![1] bcast_S7_S1x7_1 b))
      = Cert.Heads.head x W b := by
  refine (val_main_v20_eq (F := Ideal) x W b).trans ?_
  funext y
  obtain ⟨n, o, rfl⟩ : ∃ (n : Fin 5000) (o : Fin 7), y = ix2 n o := ⟨y 0, y 1, eq_ix2 y⟩
  rw [Cert.Heads.head_apply, val_main_v20_apply, val_main_v17_apply, val_main_v19_apply, val_main_v18_apply]
  have el : ∀ k : Fin 12544, lidx_main_v17 (ix2 n o) k = ix2 n k := fun k => funext fun a => Fin.ext (by
    match a with
    | ⟨0, _⟩ => rfl
    | ⟨1, _⟩ => rfl)
  have er : ∀ k : Fin 12544, idx_main_v16 (ridx_main_v17 (ix2 n o) k) = ix2 o k := fun k => funext fun a => Fin.ext (by
    match a with
    | ⟨0, _⟩ => rfl
    | ⟨1, _⟩ => rfl)
  have eb : idx_main_v18 (idx_main_v19 (ix2 n o)) = ix1 o := funext fun a => Fin.ext (by
    match a with
    | ⟨0, _⟩ => rfl)
  rw [eb]
  show (∑ k : Fin 12544, _) + _ = _
  congr 1
  refine Finset.sum_congr rfl fun k _ => ?_
  rw [val_main_v16_apply, el, er, flat_apply]

/-- Head with 2 outputs. -/
theorem head2_eq (x : FVec Ideal S5000x256x7x7 .f32) (W : FVec Ideal S2x12544 .f32) (b : FVec Ideal S2 .f32) :
    addf (Host.dotGeneral (F := Ideal) dot_S5000x12544_S12544x2_S5000x2_1_0_0_1_n_n none (shapeCast _ x shapeCasts_S5000x256x7x7_S5000x12544) (transpose S12544x2 [1, 0] W transposes_S2x12544_S12544x2_1_0)) (broadcastInDim S5000x2 ![0, 1] bcast_S1x2_S5000x2_0_1 (broadcastInDim S1x2 ![1] bcast_S2_S1x2_1 b))
      = Cert.Heads.head x W b := by
  refine (val_main_v25_eq (F := Ideal) x W b).trans ?_
  funext y
  obtain ⟨n, o, rfl⟩ : ∃ (n : Fin 5000) (o : Fin 2), y = ix2 n o := ⟨y 0, y 1, eq_ix2 y⟩
  rw [Cert.Heads.head_apply, val_main_v25_apply, val_main_v22_apply, val_main_v24_apply, val_main_v23_apply]
  have el : ∀ k : Fin 12544, lidx_main_v22 (ix2 n o) k = ix2 n k := fun k => funext fun a => Fin.ext (by
    match a with
    | ⟨0, _⟩ => rfl
    | ⟨1, _⟩ => rfl)
  have er : ∀ k : Fin 12544, idx_main_v21 (ridx_main_v22 (ix2 n o) k) = ix2 o k := fun k => funext fun a => Fin.ext (by
    match a with
    | ⟨0, _⟩ => rfl
    | ⟨1, _⟩ => rfl)
  have eb : idx_main_v23 (idx_main_v24 (ix2 n o)) = ix1 o := funext fun a => Fin.ext (by
    match a with
    | ⟨0, _⟩ => rfl)
  rw [eb]
  show (∑ k : Fin 12544, _) + _ = _
  congr 1
  refine Finset.sum_congr rfl fun k _ => ?_
  rw [val_main_v21_apply, el, er, flat_apply]

end Cert.ReferenceIdeal.RefValue

end
-- ==== Proof.lean ====
/-
  Five fully connected heads of one flattened RoI feature map, fused into one pipelined matrix product, against the
  five separate products of the reference.

  The kernel's program transposes the feature maps x : [5000, 256, 7, 7] to [7, 7, 5000, 256], stacks the five weight
  matrices into one [168, 12544] matrix which it rounds, reshapes and transposes to [7, 7, 256, 168], stacks the five
  biases into a row, and runs a pipeline over 25 blocks of 200 RoIs: at each block the body starts a running total at
  the bias row and adds, for each of the 49 spatial positions (i, j), the product of the rounded feature slab (i, j)
  with the weight slab (j, i); the [5000, 168] result is then cut into the five heads' columns.  The reference flattens
  each feature map to a vector of length 12544 = 256 · 49 and computes each head as one product plus its bias.

  At the ideal values rounding is the identity and every product is an exact finite sum, so the fused result at
  (n, q) is  b(q) + Σ_(i,j) Σ_c x(n, c, i, j) · W(q, c·49 + i·7 + j)  and the reference's is
  Σ_k xflat(n, k) · W(q, k) + b(q): one finite sum on the extended reals, regrouped along the bijection
  (c, i, j) ↦ c·49 + i·7 + j and with the bias moved to the other side — commutativity and associativity of addition
  only, so the inputs' finiteness is not used.

  The three frames: each program terminates without a fault from any launch memory and ends with its argument arrays
  as launched — for the two kernel programs from the run of the pipeline (the body's triple at every grid point, the
  host lines around the region writing no argument), for the reference from its run as a list of host operations.
  The idealization rewrote nothing, so there is nothing to preserve.
-/
import proofs.«118944_g14216341750014_cont_week2b_1508_5_alg».proof.Defs
import proofs.«118944_g14216341750014_cont_week2b_1508_5_alg».proof.Proof.Gen.Kernel
import proofs.«118944_g14216341750014_cont_week2b_1508_5_alg».proof.Proof.Gen.KernelIdeal
import proofs.«118944_g14216341750014_cont_week2b_1508_5_alg».proof.Proof.Gen.ReferenceIdeal
import proofs.«118944_g14216341750014_cont_week2b_1508_5_alg».proof.Proof.Gen.Pre_finite_inputs
import proofs.«118944_g14216341750014_cont_week2b_1508_5_alg».proof.Proof.Gen.ReferenceIdeal.Run
import proofs.«118944_g14216341750014_cont_week2b_1508_5_alg».proof.Proof.Gen.ReferenceIdeal.Read
import proofs.«118944_g14216341750014_cont_week2b_1508_5_alg».proof.Proof.FrameRunB
import proofs.«118944_g14216341750014_cont_week2b_1508_5_alg».proof.Proof.KernelRun
import proofs.«118944_g14216341750014_cont_week2b_1508_5_alg».proof.Proof.RefHeads
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- So does the reference: its run, with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

/-- From memories agreeing on the arguments both programs end with the five heads of the arguments: the kernel's
    program by its run read through the pipeline and the regrouping law, the reference by its run read operation by
    operation. -/
theorem algebraic : Cert.algebraic_KernelIdeal_ReferenceIdeal := by
  intro m ρ m' ρ' _ hagree
  refine ⟨(fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))),
    (fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    (fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    (fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    (fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))),
    Cert.KernelIdeal.Val.kernel_run m ρ, ?_⟩
  refine (θ_run Cert.ReferenceIdeal.defs _ _).mono (fun _ h c => ?_) (Cert.ReferenceIdeal.Value.run (F := Ideal) m' ρ')
  obtain ⟨h5, h10, h15, h20, h25, hargs⟩ := h c
  obtain ⟨a0, a1, a2, a3, a4, a5, a6, a7, a8, a9, a10⟩ := hagree c
  refine ⟨h5.trans ?_, h10.trans ?_, h15.trans ?_, h20.trans ?_, h25.trans ?_, hargs⟩
  · rw [a0, a1, a2]; exact Cert.ReferenceIdeal.RefValue.head32_eq _ _ _
  · rw [a0, a3, a4]; exact Cert.ReferenceIdeal.RefValue.head124_eq _ _ _
  · rw [a0, a5, a6]; exact Cert.ReferenceIdeal.RefValue.head3_eq _ _ _
  · rw [a0, a7, a8]; exact Cert.ReferenceIdeal.RefValue.head7_eq _ _ _
  · rw [a0, a9, a10]; exact Cert.ReferenceIdeal.RefValue.head2_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
